-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "neg_big_2" .f32 0xF0C9F2CA#32 ⊥
  ∧ IdealRules.named_const.Statement Cert.KernelIdeal.κ "pos_big_2" .f32 0x70C9F2CA#32 ⊤

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S128x1 : Shape := ⟨2, ![128, 1]⟩
abbrev S128x128 : Shape := ⟨2, ![128, 128]⟩
abbrev S128 : Shape := ⟨1, ![128]⟩
abbrev S128x8192 : Shape := ⟨2, ![128, 8192]⟩

abbrev nBuf : Space → Nat
  | .hbm => 39
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S1x8192, .f32⟩
  | .hbm, ⟨8, _⟩ => ⟨S8192x1, .f32⟩
  | .hbm, ⟨9, _⟩ => ⟨S8192x1, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .i1⟩
  | .hbm, ⟨21, _⟩ => ⟨S_, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S_, .f32⟩
  | .hbm, ⟨27, _⟩ => ⟨S8192x1, .i32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S8192x128, .f32⟩
  | .local _ .vmem, ⟨1, _⟩ => ⟨S1x8192, .f32⟩
  | .local _ .vmem, ⟨2, _⟩ => ⟨S128x1, .i32⟩
  | .local _ .vmem, ⟨3, _⟩ => ⟨S128x1, .i32⟩
  | .local _ .vmem, ⟨4, _⟩ => ⟨S1x8192, .i32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_call1_v0 : Ref sig .tc := ⟨.hbm, 37, rfl⟩
abbrev main_v21 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_off1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8192_S8192x1 : S8192.ShapeCasts S8192x1
  shapeCasts_S8192_S1x8192 : S8192.ShapeCasts S1x8192
  reducesTo_S8192x128_S8192_d1 : S8192x128.ReducesTo [1] S8192
  h_S_ : 0 < S_.numel
  bcast_S8192_S1x8192_1 : S8192.BroadcastsInDim S1x8192 (![1] : Fin 1 → Fin S1x8192.rank)
  h_S128x128 : 0 < S128x128.numel
  inb_S8192x128_S8192x128_0_0 : ∀ a, (![0, 0] : Fin 2 → Nat) a + S8192x128.size a ≤ S8192x128.size a
  h_S8192x128 : 0 < S8192x128.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S128x128_S128 : S128x128.Reduces [1] S128
  shapeCasts_S128_S128x1 : S128.ShapeCasts S128x1
  bitsLt_bf16_f32 : FTy.bits .bf16 < FTy.bits .f32
  broadcasts_S128x1_S128x8192 : S128x1.Broadcasts S128x8192
  broadcasts_S1x8192_S128x8192 : S1x8192.Broadcasts S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x1_d0_w32 : S128x1.Iotas .tc 32 [0]
  iota_S1x8192_d1_w32 : S1x8192.Iotas .tc 32 [1]
  reduces_S128x8192_S128 : S128x8192.Reduces [1] S128
  natLt_1_32 : 1 < 32
  bcast_S_S8192x1 : S_.BroadcastsInDim S8192x1 (![] : Fin 0 → Fin S8192x1.rank)
  reducesTo_S8192x1_S_d0_1 : S8192x1.ReducesTo [0, 1] S_
  dot_S128x128_S8192x128_S128x8192_1_1_0_0_n_n_wf : DotDims.WF S128x128 S8192x128 S128x8192 [1] [1] [0] [0] [] []
  hrank0 : 0 < grid0.rank
  k0_mult1_dvd : ∀ i : grid0.Coords, 128 ∣ (k0_mult1 i).toNat
  k0_off1_inb : ∀ i : grid0.Coords, ∀ a, (k0_off1 i) a + S128x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S8192x1.size a
  hwx0_5 : ∀ i : grid0.Coords, EltTy.bits .f32 = 32 ∨ (Rect.block (s := S8192x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S8192x1.size a
  hwx0_6 : ∀ i : grid0.Coords, EltTy.bits .f32 = 32 ∨ (Rect.block (s := S8192x1) S128x1.size (cc0_transform_6 i) (hinb0_6 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S128x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_2) S128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 74
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .i32⟩
  | .hbm, ⟨26, _⟩ => ⟨S8192x8192, .i32⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S8192x8192, .i1⟩
  | .hbm, ⟨32, _⟩ => ⟨S8192x8192, .i1⟩
  | .hbm, ⟨33, _⟩ => ⟨S8192x8192, .i1⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192, .f32⟩
  | .hbm, ⟨44, _⟩ => ⟨S_, .i1⟩
  | .hbm, ⟨45, _⟩ => ⟨S8192, .i1⟩
  | .hbm, ⟨46, _⟩ => ⟨S_, .i1⟩
  | .hbm, ⟨47, _⟩ => ⟨S8192, .i1⟩
  | .hbm, ⟨48, _⟩ => ⟨S8192, .i1⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S8192, .i32⟩
  | .hbm, ⟨57, _⟩ => ⟨S_, .i32⟩
  | .hbm, ⟨58, _⟩ => ⟨S_, .i32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_call0_v0 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_cst_4 : Ref sig .tc := ⟨.hbm, 39, rfl⟩
abbrev main_call1_v0 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_v41 : Ref sig .tc := ⟨.hbm, 58, rfl⟩
abbrev main_cst_11 : Ref sig .tc := ⟨.hbm, 59, rfl⟩
abbrev main_call2_v0 : Ref sig .tc := ⟨.hbm, 60, rfl⟩
abbrev main_call2_v1 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_c_13 : Ref sig .tc := ⟨.hbm, 65, rfl⟩
abbrev main_v44 : Ref sig .tc := ⟨.hbm, 66, rfl⟩
abbrev main_c_14 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_15 : Ref sig .tc := ⟨.hbm, 71, rfl⟩
abbrev main_call3_v0 : Ref sig .tc := ⟨.hbm, 72, rfl⟩
abbrev main_v48 : Ref sig .tc := ⟨.hbm, 73, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  natLt_1_32 : 1 < 32
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.RowBlocks.lean ====
/-
  The kernel's three results as whole arrays. The grid has 64 points; point `t` owns rows 128·t … 128·t + 127. Its body
  reads the whole embedding matrix, the precomputed squared norms, its own 128 labels and all labels, and leaves three
  columns of 128 numbers: the clamped root of the largest positive squared distance, the clamped root of the smallest
  negative squared distance, and the 0/1 validity. Each column is ONE store of one pure term of the loads (`block_far`,
  `block_near`, `block_valid`), the row tile being the matrix read at rows 128·t + r. Every point writes its block back and
  row `r` of an output array lies in the block of point `r / 128`, so each array ends as the points' columns stacked
  (`final4`, `final5`, `final6`). Nothing here depends on what the terms compute: this is bookkeeping of blocks.
-/
import proofs.«173457_j28991029248550_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Rows

open Cert.KernelIdeal Cert.KernelIdeal.Gen Idealize.ShloMosaic.ValueIdx

variable {F : FTy → Type} [FloatOps F] [Named F]
variable (m : (ℓ : Loc nD τ sig) → Buf (Elt F) ℓ) (ρ : Dev nD → PrngReg)

theorem hz : (![0, 0] : Fin 2 → Nat) = fun _ => 0 := funext fun a => by fin_cases a <;> rfl

/-! ## One point's three columns -/

/-- The 128 rows of the matrix a point works on: rows `128·t …` of the whole matrix. -/
abbrev tile (i : grid0.Coords) (x0 : Vec F S8192x128 .f32) : Vec F S128x128 .f32 :=
  View.ld x0 (Rect.unit (s := S8192x128) (k0_off1 i) S128x128.size (k0_off1_inb i))

/-- The squared distances of the point's rows to every row. -/
abbrev blockDist (i : grid0.Coords) (x0 : Vec F S8192x128 .f32) (x1 : Vec F S1x8192 .f32) : FVec F S128x8192 .f32 :=
  k0_pay5 (tile i x0) x0 x1

/-- The largest positive squared distance per row, before the root. -/
abbrev blockFar2 (i : grid0.Coords) (x0 : Vec F S8192x128 .f32) (x1 : Vec F S1x8192 .f32) (x2 : Vec F S128x1 .i32) (x3 : Vec F S1x8192 .i32) : FVec F S128x1 .f32 :=
  k0_pay8 i (tile i x0) x0 x1 x2 x3

theorem block_far (c : Dev nD) (i : grid0.Coords) (a1 : Memref sig .tc .vmem S8192x128 .f32) (h1 : a1.IsWhole) (a2 : Memref sig .tc .vmem S1x8192 .f32) (h2 : a2.IsWhole) (a3 : Memref sig .tc .vmem S128x1 .i32) (h3 : a3.IsWhole) (a4 : Memref sig .tc .vmem S1x8192 .i32) (h4 : a4.IsWhole) (a5 : Memref sig .tc .vmem S128x1 .f32) (h5 : a5.IsWhole) (a6 : Memref sig .tc .vmem S128x1 .f32) (h6 : a6.IsWhole) (a7 : Memref sig .tc .vmem S128x1 .f32) (h7 : a7.IsWhole)
    (x0 : Vec F S8192x128 .f32) (x1 : Vec F S1x8192 .f32) (x2 : Vec F S128x1 .i32) (x3 : Vec F S1x8192 .i32) :
    out0_A_4 c i a1 h1 a2 h2 a3 h3 a4 h4 a5 h5 a6 h6 a7 h7 x0 x1 x2 x3 = k0_pay3 (blockFar2 i x0 x1 x2 x3) := by
  unfold out0_A_4
  rw [View.read_writes_eq_canon _ _ _ (cover0_A_4 c i a1 h1 a2 h2 a3 h3 a4 h4 a5 h5 a6 h6 a7 h7 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S8192x128) hz, View.ld_unit_zero (S := S1x8192) hz, View.ld_unit_zero (S := S128x1) hz]
  rfl

theorem block_near (c : Dev nD) (i : grid0.Coords) (a1 : Memref sig .tc .vmem S8192x128 .f32) (h1 : a1.IsWhole) (a2 : Memref sig .tc .vmem S1x8192 .f32) (h2 : a2.IsWhole) (a3 : Memref sig .tc .vmem S128x1 .i32) (h3 : a3.IsWhole) (a4 : Memref sig .tc .vmem S1x8192 .i32) (h4 : a4.IsWhole) (a5 : Memref sig .tc .vmem S128x1 .f32) (h5 : a5.IsWhole) (a6 : Memref sig .tc .vmem S128x1 .f32) (h6 : a6.IsWhole) (a7 : Memref sig .tc .vmem S128x1 .f32) (h7 : a7.IsWhole)
    (x0 : Vec F S8192x128 .f32) (x1 : Vec F S1x8192 .f32) (x2 : Vec F S128x1 .i32) (x3 : Vec F S1x8192 .i32) :
    out0_A_5 c i a1 h1 a2 h2 a3 h3 a4 h4 a5 h5 a6 h6 a7 h7 x0 x1 x2 x3 = k0_pay4 (blockDist i x0 x1) (k0_pay7 x2 x3) := by
  unfold out0_A_5
  rw [View.read_writes_eq_canon _ _ _ (cover0_A_5 c i a1 h1 a2 h2 a3 h3 a4 h4 a5 h5 a6 h6 a7 h7 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S8192x128) hz, View.ld_unit_zero (S := S1x8192) hz, View.ld_unit_zero (S := S128x1) hz]
  rfl

theorem block_valid (c : Dev nD) (i : grid0.Coords) (a1 : Memref sig .tc .vmem S8192x128 .f32) (h1 : a1.IsWhole) (a2 : Memref sig .tc .vmem S1x8192 .f32) (h2 : a2.IsWhole) (a3 : Memref sig .tc .vmem S128x1 .i32) (h3 : a3.IsWhole) (a4 : Memref sig .tc .vmem S1x8192 .i32) (h4 : a4.IsWhole) (a5 : Memref sig .tc .vmem S128x1 .f32) (h5 : a5.IsWhole) (a6 : Memref sig .tc .vmem S128x1 .f32) (h6 : a6.IsWhole) (a7 : Memref sig .tc .vmem S128x1 .f32) (h7 : a7.IsWhole)
    (x0 : Vec F S8192x128 .f32) (x1 : Vec F S1x8192 .f32) (x2 : Vec F S128x1 .i32) (x3 : Vec F S1x8192 .i32) :
    out0_A_6 c i a1 h1 a2 h2 a3 h3 a4 h4 a5 h5 a6 h6 a7 h7 x0 x1 x2 x3 = k0_pay2 (blockDist i x0 x1) (k0_pay7 x2 x3) (blockFar2 i x0 x1 x2 x3) := by
  unfold out0_A_6
  rw [View.read_writes_eq_canon _ _ _ (cover0_A_6 c i a1 h1 a2 h2 a3 h3 a4 h4 a5 h5 a6 h6 a7 h7 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S8192x128) hz, View.ld_unit_zero (S := S1x8192) hz, View.ld_unit_zero (S := S128x1) hz]
  rfl

/-! ## Stacking the points' columns -/

/-- The point that owns row `i`. -/
def pt (i : S8192x1.Idx) : Fin cfg0.N :=
  ⟨(i 0).val / 128, by have h : (i 0).val < 8192 := (i 0).isLt; rw [show cfg0.N = 64 from N_0]; omega⟩

/-- Row `i`'s place inside its point's column. -/
def inBlock (i : S8192x1.Idx) : S128x1.Idx :=
  ix2 ⟨(i 0).val % 128, Nat.mod_lt _ (by decide)⟩ ⟨0, by decide⟩

/-- The columns of all points, one under the other: an [8192, 1] array. -/
def stack (f : Fin cfg0.N → Vec F S128x1 .f32) : S8192x1.Idx → Elt F .f32 := fun i => f (pt i) (inBlock i)

/-- Row `128·t + r` of the stack is row `r` of point `t`'s column. -/
theorem stack_at (f : Fin cfg0.N → Vec F S128x1 .f32) (t : Fin cfg0.N) (j : S128x1.Idx) (i : S8192x1.Idx)
    (hi : (i 0).val = t.val * 128 + (j 0).val) : stack f i = f t j := by
  have hj0 : (j 0).val < 128 := (j 0).isLt
  have hj1 : (j 1).val < 1 := (j 1).isLt
  have key : ∀ (t' : Fin cfg0.N) (j' : S128x1.Idx), t' = t → j' = j → f t' j' = f t j := by
    rintro _ _ rfl rfl; rfl
  refine key _ _ (Fin.ext ?_) (funext fun a => Fin.ext ?_)
  · show (i 0).val / 128 = t.val
    omega
  · match a with
    | ⟨0, _⟩ => show (i 0).val % 128 = (j 0).val; omega
    | ⟨1, _⟩ => show 0 = (j 1).val; omega

/-! ### Output window 4 -/

theorem idx_facts4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- What point `t` writes back is block `t` of the rows stacked. -/
theorem flushed4 (c : Dev nD) (t : Fin cfg0.N) :
    (dats m 0 c).flushed 4 t = ((cfg0.win 4).blk t).view.read (Elt F) (stack fun t => (outsAt0 m c t).1) := by
  show (cfg0.win 4).cut (grid0.coords t) ((dats m 0 c).after 4 t) = _
  rw [after0_4]
  obtain ⟨e0, e1⟩ := idx_facts4 t
  funext j
  show (outsAt0 m c t).1 j = stack (fun t => (outsAt0 m c t).1) (((cfg0.win 4).blk t).view.emb j)
  refine (stack_at (F := F) (fun t => (outsAt0 m c t).1) t j _ ?_).symm
  show win0_4.index t (0 : Fin 2) * 128 + 1 * (j 0).val = t.val * 128 + (j 0).val
  rw [e0]; omega

theorem mem_blk4 (t : Fin cfg0.N) (i : S8192x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v5_0).slice (win0_4.rect t)).set ↔ _
  rw [View.set_slice_whole, Rect.mem_set_unit]
  exact Iff.rfl

/-- Row `r` of the array lies in the block of point `r / 128`. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  refine ⟨pt i, flush0_4 _, ?_⟩
  rw [mem_blk4]
  obtain ⟨e0, e1⟩ := idx_facts4 (pt i)
  have hp : (pt i).val = (i 0).val / 128 := rfl
  intro a
  match a with
  | ⟨0, _⟩ => show win0_4.index (pt i) (0 : Fin 2) * 128 ≤ (i 0).val ∧ (i 0).val < win0_4.index (pt i) (0 : Fin 2) * 128 + 128; rw [e0, hp]; omega
  | ⟨1, _⟩ => show win0_4.index (pt i) (1 : Fin 2) * 1 ≤ (i 1).val ∧ (i 1).val < win0_4.index (pt i) (1 : Fin 2) * 1 + 1; rw [e1]; omega

/-- The array after the run: the points' blocks stacked. -/
theorem final4 (c : Dev nD) : (dats m 0 c).arrAt 4 cfg0.N = stack fun t => (outsAt0 m c t).1 :=
  (dats m 0 c).arrAt_eq_of_cover 4 _ (fun t _ => flushed4 m c t) cover4

/-! ### Output window 5 -/

theorem idx_facts5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- What point `t` writes back is block `t` of the rows stacked. -/
theorem flushed5 (c : Dev nD) (t : Fin cfg0.N) :
    (dats m 0 c).flushed 5 t = ((cfg0.win 5).blk t).view.read (Elt F) (stack fun t => (outsAt0 m c t).2.1) := by
  show (cfg0.win 5).cut (grid0.coords t) ((dats m 0 c).after 5 t) = _
  rw [after0_5]
  obtain ⟨e0, e1⟩ := idx_facts5 t
  funext j
  show (outsAt0 m c t).2.1 j = stack (fun t => (outsAt0 m c t).2.1) (((cfg0.win 5).blk t).view.emb j)
  refine (stack_at (F := F) (fun t => (outsAt0 m c t).2.1) t j _ ?_).symm
  show win0_5.index t (0 : Fin 2) * 128 + 1 * (j 0).val = t.val * 128 + (j 0).val
  rw [e0]; omega

theorem mem_blk5 (t : Fin cfg0.N) (i : S8192x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v5_1).slice (win0_5.rect t)).set ↔ _
  rw [View.set_slice_whole, Rect.mem_set_unit]
  exact Iff.rfl

/-- Row `r` of the array lies in the block of point `r / 128`. -/
theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  refine ⟨pt i, flush0_5 _, ?_⟩
  rw [mem_blk5]
  obtain ⟨e0, e1⟩ := idx_facts5 (pt i)
  have hp : (pt i).val = (i 0).val / 128 := rfl
  intro a
  match a with
  | ⟨0, _⟩ => show win0_5.index (pt i) (0 : Fin 2) * 128 ≤ (i 0).val ∧ (i 0).val < win0_5.index (pt i) (0 : Fin 2) * 128 + 128; rw [e0, hp]; omega
  | ⟨1, _⟩ => show win0_5.index (pt i) (1 : Fin 2) * 1 ≤ (i 1).val ∧ (i 1).val < win0_5.index (pt i) (1 : Fin 2) * 1 + 1; rw [e1]; omega

/-- The array after the run: the points' blocks stacked. -/
theorem final5 (c : Dev nD) : (dats m 0 c).arrAt 5 cfg0.N = stack fun t => (outsAt0 m c t).2.1 :=
  (dats m 0 c).arrAt_eq_of_cover 5 _ (fun t _ => flushed5 m c t) cover5

/-! ### Output window 6 -/

theorem idx_facts6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- What point `t` writes back is block `t` of the rows stacked. -/
theorem flushed6 (c : Dev nD) (t : Fin cfg0.N) :
    (dats m 0 c).flushed 6 t = ((cfg0.win 6).blk t).view.read (Elt F) (stack fun t => (outsAt0 m c t).2.2) := by
  show (cfg0.win 6).cut (grid0.coords t) ((dats m 0 c).after 6 t) = _
  rw [after0_6]
  obtain ⟨e0, e1⟩ := idx_facts6 t
  funext j
  show (outsAt0 m c t).2.2 j = stack (fun t => (outsAt0 m c t).2.2) (((cfg0.win 6).blk t).view.emb j)
  refine (stack_at (F := F) (fun t => (outsAt0 m c t).2.2) t j _ ?_).symm
  show win0_6.index t (0 : Fin 2) * 128 + 1 * (j 0).val = t.val * 128 + (j 0).val
  rw [e0]; omega

theorem mem_blk6 (t : Fin cfg0.N) (i : S8192x1.Idx) :
    i ∈ ((cfg0.win 6).blk t).view.set ↔ ∀ a : Fin 2, win0_6.index t a * S128x1.size a ≤ (i a).val ∧ (i a).val < win0_6.index t a * S128x1.size a + S128x1.size a := by
  show i ∈ ((View.whole main_v5_2).slice (win0_6.rect t)).set ↔ _
  rw [View.set_slice_whole, Rect.mem_set_unit]
  exact Iff.rfl

/-- Row `r` of the array lies in the block of point `r / 128`. -/
theorem cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  refine ⟨pt i, flush0_6 _, ?_⟩
  rw [mem_blk6]
  obtain ⟨e0, e1⟩ := idx_facts6 (pt i)
  have hp : (pt i).val = (i 0).val / 128 := rfl
  intro a
  match a with
  | ⟨0, _⟩ => show win0_6.index (pt i) (0 : Fin 2) * 128 ≤ (i 0).val ∧ (i 0).val < win0_6.index (pt i) (0 : Fin 2) * 128 + 128; rw [e0, hp]; omega
  | ⟨1, _⟩ => show win0_6.index (pt i) (1 : Fin 2) * 1 ≤ (i 1).val ∧ (i 1).val < win0_6.index (pt i) (1 : Fin 2) * 1 + 1; rw [e1]; omega

/-- The array after the run: the points' blocks stacked. -/
theorem final6 (c : Dev nD) : (dats m 0 c).arrAt 6 cfg0.N = stack fun t => (outsAt0 m c t).2.2 :=
  (dats m 0 c).arrAt_eq_of_cover 6 _ (fun t _ => flushed6 m c t) cover6

/-- The three components of what a point leaves, as the pure terms of its loads. -/
theorem outsAt_eq (c : Dev nD) (t : Fin cfg0.N) :
    outsAt0 m c t = (k0_pay3 (blockFar2 (grid0.coords t) (iblk m c 0 t) (iblk m c 1 t) (iblk m c 2 t) (iblk m c 3 t)),
      k0_pay4 (blockDist (grid0.coords t) (iblk m c 0 t) (iblk m c 1 t)) (k0_pay7 (iblk m c 2 t) (iblk m c 3 t)),
      k0_pay2 (blockDist (grid0.coords t) (iblk m c 0 t) (iblk m c 1 t)) (k0_pay7 (iblk m c 2 t) (iblk m c 3 t))
        (blockFar2 (grid0.coords t) (iblk m c 0 t) (iblk m c 1 t) (iblk m c 2 t) (iblk m c 3 t))) := by
  unfold outsAt0
  rw [block_far, block_near, block_valid]

end Cert.KernelIdeal.Rows

end
-- ==== Proof.KernelRun.lean ====
/-
  The kernel program's run, read back. After the region the host combines the three [8192, 1] result columns — far
  (clamped root of the largest positive squared distance), near (of the smallest negative one) and the 0/1 validity —
  into one number: rows whose validity exceeds one half contribute `max (far - near + margin) floor`, the others zero; the
  contributions are summed, the valid rows counted in 32-bit integers, and the sum is divided by the count (at least
  one), the result being zero when the count is not positive (`tail`). The run of the whole program ends with that
  function of the stacked columns in the result buffer and the two arguments unchanged (`run`).
-/
import proofs.«173457_j28991029248550_2_alg».proof.Proof.RowBlocks
import Idealize.ShloMosaic.Lib.StableHlo.Run

noncomputable section

open Idealize.ShloMosaic Idealize.ShloMosaic.TcCoe Idealize.SL.Sem
open Idealize.ShloMosaic.Pipeline (Dat)

namespace Cert.KernelIdeal.Rows

open Cert.KernelIdeal Cert.KernelIdeal.Gen Idealize.ShloMosaic.StableHlo

variable {F : FTy → Type} [FloatOps F] [Named F]
variable (m : (ℓ : Loc nD τ sig) → Buf (Elt F) ℓ) (ρ : Dev nD → PrngReg)

/-- Which rows count: validity above one half. -/
def tailMask (vl : FVec F S8192x1 .f32) : IVec S8192x1 1 :=
  cmpf .ogt vl (broadcastInDim S8192x1 ![] bcast_S_S8192x1 (constant S_ .f32 0x3F000000#32))

/-- The rows' terms. -/
def tailRows (hp hn : FVec F S8192x1 .f32) : FVec F S8192x1 .f32 :=
  maximumf (addf (subf hp hn) (broadcastInDim S8192x1 ![] bcast_S_S8192x1 (constant S_ .f32 0x3E99999A#32)))
    (broadcastInDim S8192x1 ![] bcast_S_S8192x1 (constant S_ .f32 0x358637BD#32))

/-- The sum of the counting rows' terms. -/
def tailTotal (hp hn vl : FVec F S8192x1 .f32) : FVec F S_ .f32 :=
  Host.reduceAdd (select (tailMask vl) (tailRows hp hn) (broadcastInDim S8192x1 ![] bcast_S_S8192x1 (constant S_ .f32 0x00000000#32)))
    (constant S_ .f32 0x00000000#32) reducesTo_S8192x1_S_d0_1 h_S_

/-- How many rows count, as a 32-bit word. -/
def tailCount (vl : FVec F S8192x1 .f32) : IVec S_ 32 :=
  Host.reduce IntOp.addi (extui 32 (tailMask (F := F) vl) natLt_1_32) (constantI S_ 32 0#32) reducesTo_S8192x1_S_d0_1 h_S_

/-- The mean over the counting rows, zero when none counts. -/
def tail (hp hn vl : FVec F S8192x1 .f32) : FVec F S_ .f32 :=
  select (cmpf .ogt (sitofp .f32 (tailCount (F := F) vl) : FVec F S_ .f32) (constant S_ .f32 0x00000000#32))
    (Host.divf (tailTotal hp hn vl) (maximumf (sitofp .f32 (tailCount (F := F) vl) : FVec F S_ .f32) (constant S_ .f32 0x3F800000#32)))
    (constant S_ .f32 0x00000000#32)

/-- The three columns, stacked over the 64 points. -/
abbrev far (c : Dev nD) : FVec F S8192x1 .f32 := stack fun t => (outsAt0 m c t).1
abbrev near (c : Dev nD) : FVec F S8192x1 .f32 := stack fun t => (outsAt0 m c t).2.1
abbrev valid (c : Dev nD) : FVec F S8192x1 .f32 := stack fun t => (outsAt0 m c t).2.2

set_option maxHeartbeats 8000000 in
/-- What the lines after the region leave in the result buffer. -/
theorem result_eq (c : Dev nD) :
    Pipeline.afterTail₀ cfgs (dats m) 0 (V0 m) [hostOps1, hostOps1_1, hostOps1_2, hostOps1_3] c main_v21
      = tail (far m c) (near m c) (valid m c) := by
  have e4 : Pipeline.withArrays (cfgs 0).spec c (V0 m c) (fun w => (dats m 0 c).arrAt w (cfgs 0).N) (Proc.tc.devRef main_v5_0) = far m c :=
    (Pipeline.withArrays_arr spec0 launch0.win.arr_inj c _ _ 4).trans (final4 m c)
  have e5 : Pipeline.withArrays (cfgs 0).spec c (V0 m c) (fun w => (dats m 0 c).arrAt w (cfgs 0).N) (Proc.tc.devRef main_v5_1) = near m c :=
    (Pipeline.withArrays_arr spec0 launch0.win.arr_inj c _ _ 5).trans (final5 m c)
  have e6 : Pipeline.withArrays (cfgs 0).spec c (V0 m c) (fun w => (dats m 0 c).arrAt w (cfgs 0).N) (Proc.tc.devRef main_v5_2) = valid m c :=
    (Pipeline.withArrays_arr spec0 launch0.win.arr_inj c _ _ 6).trans (final6 m c)
  unfold Pipeline.afterTail₀
  simp only [hostOps1, hostOps1_1, hostOps1_2, hostOps1_3, List.flatten_cons, List.flatten_nil, List.append_nil, List.cons_append, List.nil_append]
  after_results_simp
  rw [e4, e5, e6]
  rfl

/-- On every device, from any memory with zero counters: every weakly fair execution terminates with the result at the
    mean over the counting rows, of the stacked columns, and the arguments unchanged. -/
theorem run : θ_run defs (onTc (τ := τ) (main (F := F))) ⟨m, fun _ => 0, ρ⟩ fun r => ∀ c : Dev nD,
      r.2.mem ((c.tc : Thread nD τ).loc main_v21) = tail (far m c) (near m c) (valid m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v21 (Pipeline.mem_restRefs_of main_v21 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Rows

end
-- ==== Proof.HardestSpec.lean ====
/-
  Hardest-positive / hardest-negative mining over 8192 embeddings of dimension 128, as plain functions on the
  extended reals; no program is imported here.

  For rows i, j the squared distance is taken by the product identity
      dist2 i j = |x i|² + |x j|² - 2 · ⟨x i, x j⟩,
  a pair (i, j) is POSITIVE when the labels agree and i ≠ j, NEGATIVE when the labels differ. Two ways of taking the
  row extrema are written down:

    • extremum first: the largest positive / smallest negative SQUARED distance (the empty cases ⊥ / ⊤), then the
      clamped square root `root a = √(max a ε)` of that one number; a row counts when the largest positive squared
      distance is above ⊥ and the smallest negative one below ⊤;
    • root first: the clamped square root of every squared distance, then the largest positive / smallest negative of
      those (the empty cases ⊥ / ⊤ again); a row counts when it has a positive and a negative partner.

  Either way the loss is the mean over the counting rows of `max (hp - hn + margin) floor`, zero when no row counts.
  The float literals stay as the binary words they are printed with; the same word names the same extended real.
-/
import Idealize.ShloMosaic.PureOps.Ideal
import Idealize.ShloMosaic.Lib.ValueIdx

noncomputable section

namespace Cert.Hardest

open Idealize.ShloMosaic Idealize.ShloMosaic.ValueIdx

/-- The embeddings: 8192 rows of 128 extended reals. -/
abbrev Emb := (⟨2, ![8192, 128]⟩ : Shape).Idx → EReal
/-- The labels: one 32-bit word per row. -/
abbrev Lab := (⟨1, ![8192]⟩ : Shape).Idx → BitVec 32

/-- A choice between two values on a proposition (decided classically: the propositions here are order facts on the
    extended reals). -/
def pick {α : Type} (p : Prop) (a b : α) : α := @ite α p (Classical.propDecidable p) a b

theorem pick_pos {α : Type} {p : Prop} (h : p) (a b : α) : pick p a b = a := by
  unfold pick; exact @if_pos p (Classical.propDecidable p) h α a b

theorem pick_neg {α : Type} {p : Prop} (h : ¬p) (a b : α) : pick p a b = b := by
  unfold pick; exact @if_neg p (Classical.propDecidable p) h α a b

theorem pick_congr {α : Type} {p q : Prop} (h : p ↔ q) (a b : α) : pick p a b = pick q a b := by
  by_cases hp : p
  · rw [pick_pos hp, pick_pos (h.mp hp)]
  · rw [pick_neg hp, pick_neg (fun hq => hp (h.mpr hq))]

/-- The literals, as the words both programs print: 2, the clamp ε (the float nearest 1e-12), the margin (nearest 0.3)
    and the floor (nearest 1e-6). -/
def two : EReal := Ideal.ofBits .f32 0x40000000#32
def eps : EReal := Ideal.ofBits .f32 0x2B8CBCCC#32
def margin : EReal := Ideal.ofBits .f32 0x3E99999A#32
def floorv : EReal := Ideal.ofBits .f32 0x358637BD#32

/-- |x i|². -/
def sq (x : Emb) (i : Fin 8192) : EReal := ∑ k : Fin 128, x (ix2 i k) * x (ix2 i k)
/-- ⟨x i, x j⟩. -/
def cross (x : Emb) (i j : Fin 8192) : EReal := ∑ k : Fin 128, x (ix2 i k) * x (ix2 j k)
/-- The squared distance by the product identity. -/
def dist2 (x : Emb) (i j : Fin 8192) : EReal := sq x i + sq x j - two * cross x i j
/-- The clamped square root. -/
def root (a : EReal) : EReal := Ideal.sqrt (max a eps)

/-- Same label, different row. -/
def isPos (lab : Lab) (i j : Fin 8192) : Prop := lab (ix1 i) = lab (ix1 j) ∧ i ≠ j
/-- Different label. -/
def isNeg (lab : Lab) (i j : Fin 8192) : Prop := lab (ix1 i) ≠ lab (ix1 j)

/-! ## Extremum first -/

/-- The largest squared distance to a positive partner (⊥ when there is none). -/
def farPos2 (x : Emb) (lab : Lab) (i : Fin 8192) : EReal :=
  (Finset.univ : Finset (Fin 8192)).fold max ⊥ fun j => pick (isPos lab i j) (dist2 x i j) ⊥
/-- The smallest squared distance to a negative partner (⊤ when there is none). -/
def nearNeg2 (x : Emb) (lab : Lab) (i : Fin 8192) : EReal :=
  (Finset.univ : Finset (Fin 8192)).fold min ⊤ fun j => pick (isNeg lab i j) (dist2 x i j) ⊤
def hpE (x : Emb) (lab : Lab) (i : Fin 8192) : EReal := root (farPos2 x lab i)
def hnE (x : Emb) (lab : Lab) (i : Fin 8192) : EReal := root (nearNeg2 x lab i)
/-- The row counts: both extrema were met by some partner. -/
def okE (x : Emb) (lab : Lab) (i : Fin 8192) : Prop := ⊥ < farPos2 x lab i ∧ nearNeg2 x lab i < ⊤

/-! ## Root first -/

def hpR (x : Emb) (lab : Lab) (i : Fin 8192) : EReal :=
  (Finset.univ : Finset (Fin 8192)).fold max ⊥ fun j => pick (isPos lab i j) (root (dist2 x i j)) ⊥
def hnR (x : Emb) (lab : Lab) (i : Fin 8192) : EReal :=
  (Finset.univ : Finset (Fin 8192)).fold min ⊤ fun j => pick (isNeg lab i j) (root (dist2 x i j)) ⊤
/-- The row counts: it has a positive and a negative partner. -/
def okR (lab : Lab) (i : Fin 8192) : Prop := (∃ j, isPos lab i j) ∧ ∃ j, isNeg lab i j

/-! ## The loss -/

/-- One row's term. -/
def rowLoss (hp hn : EReal) : EReal := max (hp - hn + margin) floorv

/-- The sum of the counting rows' terms. -/
def total (ok : Fin 8192 → Prop) (hp hn : Fin 8192 → EReal) : EReal :=
  ∑ i : Fin 8192, pick (ok i) (rowLoss (hp i) (hn i)) 0

/-- How many rows count, as the 32-bit word both programs add up. -/
def count (ok : Fin 8192 → Prop) : BitVec 32 :=
  (Finset.univ : Finset (Fin 8192)).fold (· + ·) 0#32 fun i => pick (ok i) 1#32 0#32

/-- The mean: the total over the count, read as a signed integer and at least one; zero when nothing counts. -/
def meanOf (tot : EReal) (n : BitVec 32) : EReal :=
  pick (0 < n.toInt) (Ideal.div tot (((max n.toInt 1 : ℤ) : ℝ) : EReal)) 0

def loss (ok : Fin 8192 → Prop) (hp hn : Fin 8192 → EReal) : EReal := meanOf (total ok hp hn) (count ok)

/-- Extremum first. -/
def lossE (x : Emb) (lab : Lab) : EReal := loss (okE x lab) (hpE x lab) (hnE x lab)
/-- Root first. -/
def lossR (x : Emb) (lab : Lab) : EReal := loss (okR lab) (hpR x lab) (hnR x lab)

/-- Every entry is a real number. -/
def Finite (x : Emb) : Prop := ∀ i, x i ≠ ⊥ ∧ x i ≠ ⊤

end Cert.Hardest

end
-- ==== Proof.HardestLaw1.lean ====
/-
  The float words the mining law and its two neighbours read, as the extended reals they denote: zero, one, one half,
  the two infinities, and the factor two of the product identity. Each pattern is decoded once, here: sign bit,
  eight exponent bits, twenty-three fraction bits. An all-ones exponent with a zero fraction is an infinity of the
  sign's side; otherwise the value is (2^23 + fraction) · 2^(exponent - 150), or 0 for the all-zero word.
-/
import proofs.«173457_j28991029248550_2_alg».proof.Proof.HardestSpec

noncomputable section

namespace Cert.Hardest

open Idealize.ShloMosaic Idealize.ShloMosaic.ValueIdx

/-- The all-zero word is the real 0. -/
theorem ofBits_zero : Ideal.ofBits .f32 0x00000000#32 = (0 : EReal) := by
  simp [Ideal.ofBits, Ideal.ieee]

/-- Exponent 127, zero fraction: 2^23 · 2^(127 - 150) = 1. -/
theorem ofBits_one : Ideal.ofBits .f32 0x3F800000#32 = (1 : EReal) := by
  simp [Ideal.ofBits, Ideal.ieee, -EReal.coe_mul]; norm_num

/-- Exponent 126, zero fraction: 2^23 · 2^(126 - 150) = 1/2. -/
theorem ofBits_half : Ideal.ofBits .f32 0x3F000000#32 = (((1/2 : ℝ)) : EReal) := by
  simp [Ideal.ofBits, Ideal.ieee, -EReal.coe_mul]; norm_num

/-- Sign set, all-ones exponent, zero fraction: -∞. -/
theorem ofBits_ninf : Ideal.ofBits .f32 0xFF800000#32 = (⊥ : EReal) := by
  simp [Ideal.ofBits, Ideal.ieee]

/-- Sign clear, all-ones exponent, zero fraction: +∞. -/
theorem ofBits_pinf : Ideal.ofBits .f32 0x7F800000#32 = (⊤ : EReal) := by
  simp [Ideal.ofBits, Ideal.ieee]

/-- Exponent 128, zero fraction: 2^23 · 2^(128 - 150) = 2. In particular the factor of the product identity is a
    real number. -/
theorem two_eq : two = ((2 : ℝ) : EReal) := by
  unfold two
  simp [Ideal.ofBits, Ideal.ieee, -EReal.coe_mul]; norm_num

end Cert.Hardest

end
-- ==== Proof.HardestLaw2.lean ====
/-
  Two facts the mining law rests on.

  (1) The clamped square root is monotone on the whole extended line and fixes +∞. The square root used here sends
      -∞ and every negative real to -∞, a real r ≥ 0 to √r, and +∞ to +∞: each branch is monotone and the branches
      are stacked in order, so the map is monotone everywhere; clamping from below by a constant keeps that.

  (2) On inputs whose entries are all real numbers the squared distance is a real number: products, finite sums and
      differences of real numbers, taken in the extended reals, are the same real numbers computed in ℝ, and the
      factor two of the product identity is the real 2.
-/
import proofs.«173457_j28991029248550_2_alg».proof.Proof.HardestLaw1

noncomputable section

namespace Cert.Hardest

open Idealize.ShloMosaic Idealize.ShloMosaic.ValueIdx

/-! ## The clamped square root -/

/-- The square root is monotone on all of the extended reals: below 0 it is constantly -∞, from 0 on it is the real
    square root, and +∞ goes to +∞. -/
theorem sqrt_mono : Monotone Ideal.sqrt := by
  intro a b hab
  induction a using EReal.rec with
  | bot => simp
  | top =>
    have : b = ⊤ := top_le_iff.mp hab
    subst this; exact le_refl _
  | coe r =>
    induction b using EReal.rec with
    | bot => exact absurd hab (by simp)
    | top => simp
    | coe s =>
      have hrs : r ≤ s := EReal.coe_le_coe_iff.mp hab
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- Clamping from below by a constant is monotone, and so is its composite with the square root. -/
theorem root_mono : Monotone root := by
  intro a b hab
  unfold root
  exact sqrt_mono (max_le_max hab (le_refl _))

/-- +∞ dominates the clamp, and its square root is +∞. -/
theorem root_top : root ⊤ = ⊤ := by
  unfold root
  rw [max_eq_left le_top]
  exact Ideal.sqrt_top

/-! ## Real-valued squared distances -/

/-- An extended real that is the image of a real number. -/
def IsReal (a : EReal) : Prop := ∃ r : ℝ, a = (r : EReal)

theorem isReal_of_ne {a : EReal} (h : a ≠ ⊥ ∧ a ≠ ⊤) : IsReal a :=
  ⟨a.toReal, (EReal.coe_toReal h.2 h.1).symm⟩

theorem IsReal.ne {a : EReal} (h : IsReal a) : a ≠ ⊥ ∧ a ≠ ⊤ := by
  obtain ⟨r, rfl⟩ := h
  exact ⟨EReal.coe_ne_bot r, EReal.coe_ne_top r⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem isReal_zero : IsReal (0 : EReal) := ⟨0, EReal.coe_zero.symm⟩

theorem isReal_two : IsReal two := ⟨2, two_eq⟩

/-- A finite sum of real numbers is a real number: the empty sum is 0 and each step adds two reals. -/
theorem isReal_sum {ι : Type} (s : Finset ι) (f : ι → EReal) (h : ∀ k ∈ s, IsReal (f k)) :
    IsReal (∑ k ∈ s, f k) :=
  Finset.sum_induction f IsReal (fun _ _ ha hb => ha.add hb) isReal_zero h

theorem isReal_sq {x : Emb} (hx : Finite x) (i : Fin 8192) : IsReal (sq x i) := by
  unfold sq
  exact isReal_sum _ _ fun k _ => (isReal_of_ne (hx _)).mul (isReal_of_ne (hx _))

theorem isReal_cross {x : Emb} (hx : Finite x) (i j : Fin 8192) : IsReal (cross x i j) := by
  unfold cross
  exact isReal_sum _ _ fun k _ => (isReal_of_ne (hx _)).mul (isReal_of_ne (hx _))

/-- |x i|² + |x j|² - 2 · ⟨x i, x j⟩ is built from real entries by products, finite sums, a sum and a difference. -/
theorem isReal_dist2 {x : Emb} (hx : Finite x) (i j : Fin 8192) : IsReal (dist2 x i j) := by
  unfold dist2
  exact ((isReal_sq hx i).add (isReal_sq hx j)).sub (isReal_two.mul (isReal_cross hx i j))

/-- On real inputs the squared distance is neither infinity. -/
theorem dist2_finite {x : Emb} (hx : Finite x) (i j : Fin 8192) : dist2 x i j ≠ ⊥ ∧ dist2 x i j ≠ ⊤ :=
  (isReal_dist2 hx i j).ne

end Cert.Hardest

end
-- ==== Proof.HardestLaw.lean ====
/-
  The mining law: on inputs whose entries are all real numbers, taking the row extrema of the squared distances
  first and the clamped square root after gives the same loss as taking the clamped square root of every squared
  distance first and the row extrema after.

  The clamped square root is monotone, so it commutes with max and with min, hence with a whole fold of either,
  provided the fold's starting value is carried along: the starting value +∞ of the minimum is fixed by the root,
  the starting value -∞ of the maximum is not (its root is √ε), and that is the one place where the two orders differ:
  on a row with no positive partner. Such a row is not counted by either side. Finiteness of the inputs enters only
  to see that a row counted by partners is also counted by the extrema: a real squared distance is above -∞ and
  below +∞.
-/
import proofs.«173457_j28991029248550_2_alg».proof.Proof.HardestLaw2

noncomputable section

namespace Cert.Hardest

open Idealize.ShloMosaic Idealize.ShloMosaic.ValueIdx

/-- Any map commutes with a two-way choice. -/
theorem map_pick {α β : Type} (f : α → β) (p : Prop) (a b : α) : f (pick p a b) = pick p (f a) (f b) := by
  by_cases h : p
  · rw [pick_pos h, pick_pos h]
  · rw [pick_neg h, pick_neg h]

/-! ## The rows -/

/-- Hardest negative: the root of the minimum is the minimum of the roots, with no hypothesis. The root is monotone,
    so it commutes with min; the starting value +∞ and the filler +∞ of the non-negative pairs are fixed by it. -/
theorem hn_eq (x : Emb) (lab : Lab) (i : Fin 8192) : hnE x lab i = hnR x lab i := by
  have hf : (fun j => root (pick (isNeg lab i j) (dist2 x i j) ⊤))
      = fun j => pick (isNeg lab i j) (root (dist2 x i j)) ⊤ := by
    funext j; rw [map_pick root, root_top]
  have h := Finset.fold_hom (op := min) (op' := min) (m := root) (b := (⊤ : EReal))
    (f := fun j => pick (isNeg lab i j) (dist2 x i j) ⊤) (s := (Finset.univ : Finset (Fin 8192)))
    (fun _ _ => root_mono.map_min)
  rw [root_top, hf] at h
  exact h.symm

/-- A row is counted by its extrema exactly when it is counted by its partners. A maximum over -∞-filled entries is
    above -∞ only if some entry is, and that entry belongs to a positive pair; dually for the minimum and +∞.
    Conversely a partner's squared distance is a real number, so it lifts the maximum above -∞ (pushes the minimum
    below +∞): this is where the inputs must be real. -/
theorem ok_iff {x : Emb} (hx : Finite x) (lab : Lab) (i : Fin 8192) : okE x lab i ↔ okR lab i := by
  unfold okE okR farPos2 nearNeg2
  rw [Finset.lt_fold_max, Finset.fold_min_lt]
  constructor
  · rintro ⟨h1, h2⟩
    refine ⟨?_, ?_⟩
    · rcases h1 with h | ⟨j, _, hj⟩
      · exact absurd h (lt_irrefl _)
      · refine ⟨j, ?_⟩
        by_contra hp
        rw [pick_neg hp] at hj
        exact lt_irrefl _ hj
    · rcases h2 with h | ⟨j, _, hj⟩
      · exact absurd h (lt_irrefl _)
      · refine ⟨j, ?_⟩
        by_contra hp
        rw [pick_neg hp] at hj
        exact lt_irrefl _ hj
  · rintro ⟨⟨j, hj⟩, ⟨k, hk⟩⟩
    refine ⟨Or.inr ⟨j, Finset.mem_univ _, ?_⟩, Or.inr ⟨k, Finset.mem_univ _, ?_⟩⟩
    · rw [pick_pos hj]; exact bot_lt_iff_ne_bot.mpr (dist2_finite hx i j).1
    · rw [pick_pos hk]; exact lt_top_iff_ne_top.mpr (dist2_finite hx i k).2

/-- Hardest positive, on a row with a positive partner. The root of the maximum is the maximum of the roots started
    at the root of -∞ and filled with it. Every root is at least the root of -∞, and the partner's root is one of
    the entries, so that starting value and filler can be lowered to -∞ without changing the maximum. -/
theorem hp_eq_of_ok (x : Emb) (lab : Lab) (i : Fin 8192) (h : ∃ j, isPos lab i j) :
    hpE x lab i = hpR x lab i := by
  obtain ⟨j0, hj0⟩ := h
  have hf : (fun j => root (pick (isPos lab i j) (dist2 x i j) ⊥))
      = fun j => pick (isPos lab i j) (root (dist2 x i j)) (root ⊥) := by
    funext j; rw [map_pick root]
  have hh := Finset.fold_hom (op := max) (op' := max) (m := root) (b := (⊥ : EReal))
    (f := fun j => pick (isPos lab i j) (dist2 x i j) ⊥) (s := (Finset.univ : Finset (Fin 8192)))
    (fun _ _ => root_mono.map_max)
  rw [hf] at hh
  unfold hpE hpR farPos2
  rw [← hh]
  have hbase : root ⊥
      ≤ Finset.fold max ⊥ (fun j => pick (isPos lab i j) (root (dist2 x i j)) ⊥) Finset.univ := by
    rw [Finset.le_fold_max]
    refine Or.inr ⟨j0, Finset.mem_univ _, ?_⟩
    rw [pick_pos hj0]
    exact root_mono bot_le
  apply le_antisymm
  · rw [Finset.fold_max_le]
    refine ⟨hbase, fun j _ => ?_⟩
    by_cases hp : isPos lab i j
    · rw [pick_pos hp, Finset.le_fold_max]
      exact Or.inr ⟨j, Finset.mem_univ _, le_of_eq (pick_pos hp _ _).symm⟩
    · rw [pick_neg hp]; exact hbase
  · rw [Finset.fold_max_le]
    refine ⟨bot_le, fun j _ => ?_⟩
    by_cases hp : isPos lab i j
    · rw [pick_pos hp, Finset.le_fold_max]
      exact Or.inr ⟨j, Finset.mem_univ _, le_of_eq (pick_pos hp _ _).symm⟩
    · rw [pick_neg hp]; exact bot_le

/-! ## The law -/

/-- The two losses agree on real inputs. The same rows count on both sides, so the two counts add the same words;
    on a counting row both extrema agree, on any other row both terms are 0, so the two totals add the same terms. -/
theorem lossE_eq_lossR (x : Emb) (lab : Lab) (hx : Finite x) : lossE x lab = lossR x lab := by
  have hcount : count (okE x lab) = count (okR lab) := by
    unfold count
    congr 1
    funext i
    exact pick_congr (ok_iff hx lab i) _ _
  have htotal : total (okE x lab) (hpE x lab) (hnE x lab) = total (okR lab) (hpR x lab) (hnR x lab) := by
    unfold total
    refine Finset.sum_congr rfl fun i _ => ?_
    rw [pick_congr (ok_iff hx lab i)]
    by_cases h : okR lab i
    · rw [pick_pos h, pick_pos h, hp_eq_of_ok x lab i h.1, hn_eq]
    · rw [pick_neg h, pick_neg h]
  unfold lossE lossR loss
  rw [hcount, htotal]

end Cert.Hardest

end
-- ==== Proof.RowDist.lean ====
/-
  A grid point's squared distances, read at an index over the extended reals. Point `i` works on the 128 rows
  `128·i + r` of the embedding matrix `x`. For local row `r` and any row `j` of the whole matrix its body forms
      (∑ₖ x(128·i + r, k)²) + sq(j) - 2 · ∑ₖ x(128·i + r, k) · x(j, k),
  the first sum taken inside the body over the lanes of the row tile, `sq(j)` read from the precomputed row of squared
  norms, and the last sum by the matrix unit from the tile and the whole matrix (the narrowing to bf16 in front of it
  changes nothing over the extended reals). With the precomputed row equal to the squared norms this is `dist2 x (128·i + r) j`.
-/
import proofs.«173457_j28991029248550_2_alg».proof.Proof.RowBlocks
import proofs.«173457_j28991029248550_2_alg».proof.Proof.HardestLaw
import Idealize.ShloMosaic.PureOps.Ideal.Laws
import Idealize.ShloMosaic.Lib.ValueLayout

noncomputable section

open Idealize.ShloMosaic Idealize.ShloMosaic.TcCoe Idealize.SL.Sem

namespace Cert.KernelIdeal.Rows

open Cert.KernelIdeal Cert.KernelIdeal.Gen Idealize.ShloMosaic.ValueIdx Cert.Hardest

/-! ## Layout operations on columns and rows, read at an index -/

/-- A column [a, 1] broadcast along the lanes reads its row. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] recast as a column [a, 1] keeps its entries. -/
theorem shapeCast_col_apply {α : Type} {a : ℕ} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h _ _ ?_
  rw [Shape.rowMajor_val_one, Shape.rowMajor_val_two]
  show p.val = p.val * 1 + 0
  omega

/-! ## The row tile -/

/-- The row of the whole matrix that local row `r` of point `i` is. -/
def gRow (i : grid0.Coords) (r : Fin 128) : Fin 8192 :=
  ⟨128 * (i 0).val + r.val, by have h : (i 0).val < 64 := (i 0).isLt; have := r.isLt; omega⟩

theorem tile_apply (i : grid0.Coords) (x0 : Vec Ideal S8192x128 .f32) (r k : Fin 128) :
    tile i x0 (ix2 r k) = x0 (ix2 (gRow i r) k) := by
  show x0 ((Rect.unit (s := S8192x128) (k0_off1 i) S128x128.size (k0_off1_inb i)).idx (ix2 r k)) = _
  refine congrArg x0 (funext fun a => Fin.ext ?_)
  have e := k0_off1_eq i
  match a with
  | ⟨0, _⟩ =>
    show (k0_off1 i) 0 + 1 * r.val = 128 * (i 0).val + r.val
    rw [e]; show 128 * (i 0).val + 1 * r.val = _; omega
  | ⟨1, _⟩ =>
    show (k0_off1 i) 1 + 1 * k.val = k.val
    rw [e]; show 0 + 1 * k.val = _; omega

/-! ## The lane sum and the matrix product at an index -/

/-- The lane sum of a [128, 128] block at row `r`. -/
theorem laneSum_apply (v : FVec Ideal S128x128 .f32) (r : Fin 128) (hφ : FKind.Formats FTy.f32)
    (hacc : (0x00000000#32 : BitVec 32) = 0x00000000#32) :
    multiReduction (F := Ideal) .add [1] S128 v 0x00000000#32 reduces_S128x128_S128 hφ hacc (ix1 r)
      = ∑ k : Fin 128, v (ix2 r k) := by
  refine (Ideal.multiReduction_add_single v 0x00000000#32 reduces_S128x128_S128 hφ hacc (ix1 r)).trans ?_
  refine Finset.sum_congr rfl fun k _ => congrArg v (funext fun a => Fin.ext ?_)
  rw [Shape.Reduces.lift_val]
  match a with
  | ⟨0, _⟩ => rfl
  | ⟨1, _⟩ => rfl

/-- The tile operand's row is the result's row; -/
theorem product_lhs0 (i : S128x8192.Idx) (q : dot_S128x128_S8192x128_S128x8192_1_1_0_0_n_n.contr.Idx) : (dot_S128x128_S8192x128_S128x8192_1_1_0_0_n_n.lhsIdx i q 0).val = (i 0).val := by
  unfold DotDims.lhsIdx
  rw [dif_neg (show ¬(0 : Fin S128x128.rank) ∈ dot_S128x128_S8192x128_S128x8192_1_1_0_0_n_n.lhsBatch by decide), dif_pos (show (0 : Fin S128x128.rank) ∈ dot_S128x128_S8192x128_S128x8192_1_1_0_0_n_n.lhsNonContracting by decide)]
  rfl
/-- the matrix operand's row is the result's column; -/
theorem product_rhs0 (i : S128x8192.Idx) (q : dot_S128x128_S8192x128_S128x8192_1_1_0_0_n_n.contr.Idx) : (dot_S128x128_S8192x128_S128x8192_1_1_0_0_n_n.rhsIdx i q 0).val = (i 1).val := by
  unfold DotDims.rhsIdx
  rw [dif_neg (show ¬(0 : Fin S8192x128.rank) ∈ dot_S128x128_S8192x128_S128x8192_1_1_0_0_n_n.rhsBatch by decide), dif_pos (show (0 : Fin S8192x128.rank) ∈ dot_S128x128_S8192x128_S128x8192_1_1_0_0_n_n.rhsNonContracting by decide)]
  rfl
/-- and both operands' lanes are the contracted coordinate. -/
theorem product_lhs1 (i : S128x8192.Idx) (q : dot_S128x128_S8192x128_S128x8192_1_1_0_0_n_n.contr.Idx) : (dot_S128x128_S8192x128_S128x8192_1_1_0_0_n_n.lhsIdx i q 1).val = (q ⟨0, by decide⟩).val :=
  dot_S128x128_S8192x128_S128x8192_1_1_0_0_n_n.lhsIdx_val_of_single rfl i q
theorem product_rhs1 (i : S128x8192.Idx) (q : dot_S128x128_S8192x128_S128x8192_1_1_0_0_n_n.contr.Idx) : (dot_S128x128_S8192x128_S128x8192_1_1_0_0_n_n.rhsIdx i q 1).val = (q ⟨0, by decide⟩).val :=
  dot_S128x128_S8192x128_S128x8192_1_1_0_0_n_n.rhsIdx_val_of_single rfl i q

/-- The product of a [128, 128] tile with the transpose of an [8192, 128] matrix, into a zero accumulator: entry
    (r, j) is the inner product of row `r` of the tile and row `j` of the matrix. -/
theorem product_apply (A : FVec Ideal S128x128 .bf16) (B : FVec Ideal S8192x128 .bf16) (r : Fin 128) (j : Fin 8192) :
    matmul (F := Ideal) dot_S128x128_S8192x128_S128x8192_1_1_0_0_n_n none A B (constant S128x8192 .f32 0x00000000#32) (ix2 r j)
      = ∑ k : Fin 128, A (ix2 r k) * B (ix2 j k) := by
  simp only [matmul]
  rw [Ideal.matmul_constant_zero_apply, ← Equiv.sum_comp (ValueIdx.contrEquiv1 dot_S128x128_S8192x128_S128x8192_1_1_0_0_n_n 128 rfl rfl).symm]
  refine Finset.sum_congr rfl fun k _ => ?_
  have hk := ValueIdx.contrEquiv1_symm_val dot_S128x128_S8192x128_S128x8192_1_1_0_0_n_n 128 rfl rfl k
  have el : dot_S128x128_S8192x128_S128x8192_1_1_0_0_n_n.lhsIdx (ix2 r j) ((ValueIdx.contrEquiv1 dot_S128x128_S8192x128_S128x8192_1_1_0_0_n_n 128 rfl rfl).symm k) = ix2 r k := funext fun a => Fin.ext (by
    match a with
    | ⟨0, _⟩ => exact product_lhs0 _ _
    | ⟨1, _⟩ => exact (product_lhs1 _ _).trans hk)
  have er : dot_S128x128_S8192x128_S128x8192_1_1_0_0_n_n.rhsIdx (ix2 r j) ((ValueIdx.contrEquiv1 dot_S128x128_S8192x128_S128x8192_1_1_0_0_n_n 128 rfl rfl).symm k) = ix2 j k := funext fun a => Fin.ext (by
    match a with
    | ⟨0, _⟩ => exact product_rhs0 _ _
    | ⟨1, _⟩ => exact (product_rhs1 _ _).trans hk)
  rw [el, er]

/-! ## The squared distances of a point's rows -/

set_option maxHeartbeats 1600000 in
theorem dist_apply (i : grid0.Coords) (x : Emb) (x1 : Vec Ideal S1x8192 .f32)
    (h1 : ∀ j : Fin 8192, x1 (ix2 (0 : Fin 1) j) = sq x j) (r : Fin 128) (j : Fin 8192) :
    blockDist (F := Ideal) i x x1 (ix2 r j) = dist2 x (gRow i r) j := by
  show subf (addf (broadcastTo S128x8192 (shapeCast S128x1 (multiReduction (F := Ideal) .add [1] S128 (mulf (tile (F := Ideal) i x) (tile (F := Ideal) i x)) 0x00000000#32 reduces_S128x128_S128 (.inl rfl) rfl) shapeCasts_S128_S128x1) broadcasts_S128x1_S128x8192)
        (broadcastTo S128x8192 (shapeCast S1x8192 x1 shapeCasts_S1x8192_S1x8192) broadcasts_S1x8192_S128x8192))
      (mulf (broadcast S128x8192 (Scalar.ofBits (F := Ideal) .f32 0x40000000#32))
        (matmul (F := Ideal) dot_S128x128_S8192x128_S128x8192_1_1_0_0_n_n none (truncf .bf16 (tile (F := Ideal) i x) bitsLt_bf16_f32) (truncf .bf16 x bitsLt_bf16_f32) (constant S128x8192 .f32 0x00000000#32))) (ix2 r j)
    = sq x (gRow i r) + sq x j - two * cross x (gRow i r) j
  rw [subf_apply, addf_apply, mulf_apply, broadcast_apply]
  rw [broadcastTo_col_apply, shapeCast_col_apply, laneSum_apply, broadcastTo_1b_ab_apply, shapeCast_self, h1 j, product_apply]
  simp only [mulf_apply, truncf_apply]
  have e1 : ∑ k : Fin 128, tile (F := Ideal) i x (ix2 r k) * tile (F := Ideal) i x (ix2 r k) = sq x (gRow i r) :=
    Finset.sum_congr rfl fun k _ => by rw [tile_apply]
  have e2 : ∑ k : Fin 128, tile (F := Ideal) i x (ix2 r k) * x (ix2 j k) = cross x (gRow i r) j :=
    Finset.sum_congr rfl fun k _ => by rw [tile_apply]
  exact congrArg₂ (fun a b => a + sq x j - two * b) e1 e2

end Cert.KernelIdeal.Rows

end
-- ==== Proof.RowMasks.lean ====
/-
  A grid point's three columns over the extended reals, row by row. For local row `r` of point `i` (row
  `R = 128·i + r` of the whole matrix) and a row `j`:
    • the pair is POSITIVE when the labels agree and `R ≠ j`: the body tests the labels word by word and compares the
      32-bit row number `128·i + r` with the lane number `j` (both far below 2³², so the words are equal exactly when
      the numbers are);
    • the pair is NEGATIVE when the labels differ.
  The column of largest positive squared distances is the row maximum of "the squared distance where positive, the
  named bottom elsewhere", the column of smallest negative ones the row minimum with the named top; the validity is
  1 exactly when the maximum is above the (named) bottom and the minimum below the (named) top. So the three columns
  are `hpE`, `hnE` and the indicator of `okE` at `R`.
-/
import proofs.«173457_j28991029248550_2_alg».proof.Proof.RowDist
import Idealize.ShloMosaic.PureOps.IdealRules

noncomputable section

open Idealize.ShloMosaic Idealize.ShloMosaic.TcCoe Idealize.SL.Sem

namespace Cert.KernelIdeal.Rows

open Cert.KernelIdeal Cert.KernelIdeal.Gen Idealize.ShloMosaic.ValueIdx Cert.Hardest

/-! ## One-bit words -/

theorem bit_cases (b : BitVec 1) : b = 0#1 ∨ b = 1#1 := by
  by_cases h : b = 1#1
  · exact Or.inr h
  · exact Or.inl (ValueIdx.eq_zero_of_ne_one h)

theorem ofBool_eq_one (b : Bool) : BitVec.ofBool b = 1#1 ↔ b = true := by cases b <;> decide

theorem cmpi_eq_iff (a b : BitVec 32) : IntOp.cmpi .eq a b = 1#1 ↔ a = b := by
  show BitVec.ofBool (a == b) = 1#1 ↔ a = b
  rw [ofBool_eq_one, beq_iff_eq]

theorem xori_one_iff (b : BitVec 1) : IntOp.xori b 1#1 = 1#1 ↔ ¬b = 1#1 := by
  rcases bit_cases b with rfl | rfl <;> decide

theorem andi_iff (a b : BitVec 1) : IntOp.andi a b = 1#1 ↔ a = 1#1 ∧ b = 1#1 := by
  rcases bit_cases a with rfl | rfl <;> rcases bit_cases b with rfl | rfl <;> decide

/-- A strict comparison's bit. -/
theorem cmp_ogt_iff (a b : EReal) : Ideal.cmp .ogt a b = 1#1 ↔ b < a := by
  show BitVec.ofBool (decide (b < a)) = 1#1 ↔ b < a
  rw [ofBool_eq_one, decide_eq_true_iff]

theorem cmp_olt_iff (a b : EReal) : Ideal.cmp .olt a b = 1#1 ↔ a < b := by
  show BitVec.ofBool (decide (a < b)) = 1#1 ↔ a < b
  rw [ofBool_eq_one, decide_eq_true_iff]

/-! ## The row number as a 32-bit word -/

theorem row_word_eq (t r j : Nat) (ht : t < 64) (hr : r < 128) (hj : j < 8192) :
    IntOp.addi (Scalar.muli (BitVec.ofNat 32 t) 128#32) (BitVec.ofNat 32 (0 * 128 + r)) = BitVec.ofNat 32 (0 * 8192 + j)
      ↔ 128 * t + r = j := by
  have h32 : (2 : ℕ) ^ 32 = 4294967296 := by norm_num
  constructor
  · intro h
    have h' := congrArg BitVec.toNat h
    simp only [IntOp.addi, Scalar.muli, IntOp.muli, BitVec.toNat_add, BitVec.toNat_mul, BitVec.toNat_ofNat, h32] at h'
    omega
  · intro h
    apply BitVec.eq_of_toNat_eq
    simp only [IntOp.addi, Scalar.muli, IntOp.muli, BitVec.toNat_add, BitVec.toNat_mul, BitVec.toNat_ofNat, h32]
    omega

/-! ## The masks of a point -/

section Masks

variable {F : FTy → Type} [FloatOps F] [Named F]

/-- "This row is that lane": the row number `128·i + r` against the lane number. -/
def diagMask (i : grid0.Coords) : IVec S128x8192 1 :=
  cmpi .eq (broadcastTo S128x8192 (addi (broadcast S128x1 (Scalar.muli (BitVec.ofNat 32 (i 0).val) 128#32)) (iota .tc S128x1 32 [0] iota_S128x1_d0_w32)) broadcasts_S128x1_S128x8192)
    (broadcastTo S128x8192 (iota .tc S1x8192 32 [1] iota_S1x8192_d1_w32) broadcasts_S1x8192_S128x8192)

/-- Same label and not the same row. -/
def posMask (i : grid0.Coords) (x2 : Vec F S128x1 .i32) (x3 : Vec F S1x8192 .i32) : IVec S128x8192 1 :=
  andi (k0_pay6 x2 x3) (xori (diagMask i) (constantI S128x8192 1 1#1))

/-- The column of largest positive squared distances is the row maximum of the masked distances. -/
theorem far2_unfold (i : grid0.Coords) (x0 : Vec F S8192x128 .f32) (x1 : Vec F S1x8192 .f32) (x2 : Vec F S128x1 .i32) (x3 : Vec F S1x8192 .i32) :
    blockFar2 i x0 x1 x2 x3 = shapeCast S128x1 (multiReduction .maximumf [1] S128
      (select (posMask i x2 x3) (blockDist i x0 x1) (broadcast S128x8192 (Named.named κ "neg_big" (φ := .f32) 0xF149F2CA#32)))
      0xFF800000#32 reduces_S128x8192_S128 (.inl rfl) rfl) shapeCasts_S128_S128x1 := rfl

/-- The column of smallest negative squared distances is the row minimum of the masked distances. -/
theorem near2_unfold (d : FVec F S128x8192 .f32) (msk : IVec S128x8192 1) :
    k0_pay1 d msk = shapeCast S128x1 (multiReduction .minimumf [1] S128
      (select msk d (broadcast S128x8192 (Named.named κ "pos_big" (φ := .f32) 0x7149F2CA#32)))
      0x7F800000#32 reduces_S128x8192_S128 (.inl rfl) rfl) shapeCasts_S128_S128x1 := rfl

end Masks

/-! ## Over the extended reals -/

theorem neg_big_eq : Named.named (F := Ideal) κ "neg_big" (φ := .f32) 0xF149F2CA#32 = (⊥ : EReal) :=
  IdealRules.named_const.ideal_named_scalar _ _ _ _ rfl
theorem pos_big_eq : Named.named (F := Ideal) κ "pos_big" (φ := .f32) 0x7149F2CA#32 = (⊤ : EReal) :=
  IdealRules.named_const.ideal_named_scalar _ _ _ _ rfl
theorem neg_big_2_eq : Named.named (F := Ideal) κ "neg_big_2" (φ := .f32) 0xF0C9F2CA#32 = (⊥ : EReal) :=
  IdealRules.named_const.ideal_named_scalar _ _ _ _ rfl
theorem pos_big_2_eq : Named.named (F := Ideal) κ "pos_big_2" (φ := .f32) 0x70C9F2CA#32 = (⊤ : EReal) :=
  IdealRules.named_const.ideal_named_scalar _ _ _ _ rfl

/-- A row maximum of a [128, 8192] block, from the bottom. -/
theorem rowMax_apply (v : FVec Ideal S128x8192 .f32) (r : Fin 128) (hφ : FKind.Formats FTy.f32)
    (hacc : (0xFF800000#32 : BitVec 32) = 0xFF800000#32) :
    multiReduction (F := Ideal) .maximumf [1] S128 v 0xFF800000#32 reduces_S128x8192_S128 hφ hacc (ix1 r)
      = (Finset.univ : Finset (Fin 8192)).fold max ⊥ fun j => v (ix2 r j) := by
  refine (Ideal.multiReduction_maximumf_single v 0xFF800000#32 reduces_S128x8192_S128 hφ hacc (ix1 r)).trans ?_
  rw [show FloatOps.ofBits (F := Ideal) .f32 0xFF800000#32 = (⊥ : EReal) from ofBits_ninf]
  refine Finset.fold_congr fun j _ => congrArg v (funext fun a => Fin.ext ?_)
  rw [Shape.Reduces.lift_val]
  match a with
  | ⟨0, _⟩ => rfl
  | ⟨1, _⟩ => rfl

/-- A row minimum, from the top. -/
theorem rowMin_apply (v : FVec Ideal S128x8192 .f32) (r : Fin 128) (hφ : FKind.Formats FTy.f32)
    (hacc : (0x7F800000#32 : BitVec 32) = 0x7F800000#32) :
    multiReduction (F := Ideal) .minimumf [1] S128 v 0x7F800000#32 reduces_S128x8192_S128 hφ hacc (ix1 r)
      = (Finset.univ : Finset (Fin 8192)).fold min ⊤ fun j => v (ix2 r j) := by
  refine ((multiReduction_minimumf_eq_fold v 0x7F800000#32 reduces_S128x8192_S128 hφ hacc (ix1 r)).trans
    (reduces_S128x8192_S128.fold_filter_drop_single _ _ v (ix1 r))).trans ?_
  rw [show FloatOps.ofBits (F := Ideal) .f32 0x7F800000#32 = (⊤ : EReal) from ofBits_pinf]
  refine Finset.fold_congr fun j _ => congrArg v (funext fun a => Fin.ext ?_)
  rw [Shape.Reduces.lift_val]
  match a with
  | ⟨0, _⟩ => rfl
  | ⟨1, _⟩ => rfl

/-- The clamped root, entry by entry. -/
theorem clampRoot_apply (v : FVec Ideal S128x1 .f32) (y : S128x1.Idx) : k0_pay3 (F := Ideal) v y = root (v y) := by
  unfold k0_pay3 root eps
  rfl

theorem clampRootMin_apply (d : FVec Ideal S128x8192 .f32) (msk : IVec S128x8192 1) (y : S128x1.Idx) :
    k0_pay4 (F := Ideal) d msk y = root (k0_pay1 (F := Ideal) d msk y) := by
  have e : k0_pay4 (F := Ideal) d msk = k0_pay3 (F := Ideal) (k0_pay1 d msk) := rfl
  rw [e, clampRoot_apply]

/-- The conjunction of two strict comparisons of columns, as the integer 0 or 1 read as a real, entry by entry. -/
theorem validCol_gen (v w : FVec Ideal S128x1 .f32) (y : S128x1.Idx) :
    (sitofp .f32 (extui 32 (andi (cmpf .ogt v (broadcast S128x1 (Named.named (F := Ideal) κ "neg_big_2" (φ := .f32) 0xF0C9F2CA#32)))
        (cmpf .olt w (broadcast S128x1 (Named.named (F := Ideal) κ "pos_big_2" (φ := .f32) 0x70C9F2CA#32)))) natLt_1_32) : FVec Ideal S128x1 .f32) y
      = ((((IntOp.andi (Ideal.cmp .ogt (v y) (Named.named (F := Ideal) κ "neg_big_2" (φ := .f32) 0xF0C9F2CA#32))
          (Ideal.cmp .olt (w y) (Named.named (F := Ideal) κ "pos_big_2" (φ := .f32) 0x70C9F2CA#32))).setWidth 32).toInt : ℝ) : EReal) := rfl

/-- The validity entry of a point. -/
theorem validCol_apply (d : FVec Ideal S128x8192 .f32) (msk : IVec S128x8192 1) (v40 : FVec Ideal S128x1 .f32) (y : S128x1.Idx) :
    k0_pay2 (F := Ideal) d msk v40 y
      = ((((IntOp.andi (Ideal.cmp .ogt (v40 y) (Named.named (F := Ideal) κ "neg_big_2" (φ := .f32) 0xF0C9F2CA#32))
          (Ideal.cmp .olt (k0_pay1 (F := Ideal) d msk y) (Named.named (F := Ideal) κ "pos_big_2" (φ := .f32) 0x70C9F2CA#32))).setWidth 32).toInt : ℝ) : EReal) := by
  have e : k0_pay2 (F := Ideal) d msk v40
      = (sitofp .f32 (extui 32 (andi (cmpf .ogt v40 (broadcast S128x1 (Named.named (F := Ideal) κ "neg_big_2" (φ := .f32) 0xF0C9F2CA#32)))
        (cmpf .olt (k0_pay1 (F := Ideal) d msk) (broadcast S128x1 (Named.named (F := Ideal) κ "pos_big_2" (φ := .f32) 0x70C9F2CA#32)))) natLt_1_32) : FVec Ideal S128x1 .f32) := rfl
  rw [e]
  exact validCol_gen v40 (k0_pay1 (F := Ideal) d msk) y

theorem one_bit_real : ((((1#1 : BitVec 1).setWidth 32).toInt : ℝ) : EReal) = 1 := by
  rw [show ((1#1 : BitVec 1).setWidth 32).toInt = 1 from by decide]; norm_num
theorem zero_bit_real : ((((0#1 : BitVec 1).setWidth 32).toInt : ℝ) : EReal) = 0 := by
  rw [show ((0#1 : BitVec 1).setWidth 32).toInt = 0 from by decide]; norm_num

section Rows

variable (i : grid0.Coords) (lab : Lab) (x2 : Vec Ideal S128x1 .i32) (x3 : Vec Ideal S1x8192 .i32)
  (h2 : ∀ r : Fin 128, x2 (ix2 r (0 : Fin 1)) = lab (ix1 (gRow i r)))
  (h3 : ∀ j : Fin 8192, x3 (ix2 (0 : Fin 1) j) = lab (ix1 j))
include h2 h3

/-- The label test. -/
theorem same_apply (r : Fin 128) (j : Fin 8192) :
    k0_pay6 (F := Ideal) x2 x3 (ix2 r j) = 1#1 ↔ lab (ix1 (gRow i r)) = lab (ix1 j) := by
  show IntOp.cmpi .eq (broadcastTo S128x8192 (shapeCast S128x1 x2 shapeCasts_S128x1_S128x1) broadcasts_S128x1_S128x8192 (ix2 r j))
      (broadcastTo S128x8192 (shapeCast S1x8192 x3 shapeCasts_S1x8192_S1x8192) broadcasts_S1x8192_S128x8192 (ix2 r j)) = 1#1 ↔ _
  rw [broadcastTo_col_apply, broadcastTo_1b_ab_apply, shapeCast_self, shapeCast_self, h2, h3, cmpi_eq_iff]

omit h2 h3 in
/-- The row-number test. -/
theorem diag_apply (r : Fin 128) (j : Fin 8192) : diagMask i (ix2 r j) = 1#1 ↔ gRow i r = j := by
  have ht : (i 0).val < 64 := (i 0).isLt
  show IntOp.cmpi .eq
      (broadcastTo S128x8192 (addi (broadcast S128x1 (Scalar.muli (BitVec.ofNat 32 (i 0).val) 128#32)) (iota .tc S128x1 32 [0] iota_S128x1_d0_w32)) broadcasts_S128x1_S128x8192 (ix2 r j))
      (broadcastTo S128x8192 (iota .tc S1x8192 32 [1] iota_S1x8192_d1_w32) broadcasts_S1x8192_S128x8192 (ix2 r j)) = 1#1 ↔ _
  rw [broadcastTo_col_apply, broadcastTo_1b_ab_apply, cmpi_eq_iff]
  show IntOp.addi (Scalar.muli (BitVec.ofNat 32 (i 0).val) 128#32) (BitVec.ofNat 32 (0 * 128 + r.val)) = BitVec.ofNat 32 (0 * 8192 + j.val) ↔ _
  rw [row_word_eq _ _ _ ht r.isLt j.isLt]
  exact ⟨fun h => Fin.ext h, fun h => congrArg Fin.val h⟩

theorem posMask_apply (r : Fin 128) (j : Fin 8192) :
    posMask (F := Ideal) i x2 x3 (ix2 r j) = 1#1 ↔ isPos lab (gRow i r) j := by
  show IntOp.andi (k0_pay6 (F := Ideal) x2 x3 (ix2 r j)) (IntOp.xori (diagMask i (ix2 r j)) 1#1) = 1#1 ↔ _
  rw [andi_iff, xori_one_iff, same_apply i lab x2 x3 h2 h3, diag_apply]
  exact Iff.rfl

theorem negMask_apply (r : Fin 128) (j : Fin 8192) :
    k0_pay7 (F := Ideal) x2 x3 (ix2 r j) = 1#1 ↔ isNeg lab (gRow i r) j := by
  show IntOp.xori (k0_pay6 (F := Ideal) x2 x3 (ix2 r j)) 1#1 = 1#1 ↔ _
  rw [xori_one_iff, same_apply i lab x2 x3 h2 h3]
  exact Iff.rfl

variable (x : Emb) (x1 : Vec Ideal S1x8192 .f32) (h1 : ∀ j : Fin 8192, x1 (ix2 (0 : Fin 1) j) = sq x j)
include h1

/-- The largest positive squared distance of row `R`. -/
theorem far2_apply (r : Fin 128) :
    blockFar2 (F := Ideal) i x x1 x2 x3 (ix2 r (0 : Fin 1)) = farPos2 x lab (gRow i r) := by
  rw [far2_unfold, shapeCast_col_apply, rowMax_apply]
  unfold farPos2
  refine Finset.fold_congr fun j _ => ?_
  rw [select_apply, broadcast_apply, neg_big_eq, dist_apply i x x1 h1]
  by_cases hp : isPos lab (gRow i r) j
  · rw [pick_pos hp, (posMask_apply i lab x2 x3 h2 h3 r j).mpr hp, select_one]
  · rw [pick_neg hp, eq_zero_of_ne_one (fun h => hp ((posMask_apply i lab x2 x3 h2 h3 r j).mp h)), select_zero]

/-- The smallest negative squared distance of row `R`. -/
theorem near2_apply (r : Fin 128) :
    k0_pay1 (F := Ideal) (blockDist i x x1) (k0_pay7 x2 x3) (ix2 r (0 : Fin 1)) = nearNeg2 x lab (gRow i r) := by
  rw [near2_unfold, shapeCast_col_apply, rowMin_apply]
  unfold nearNeg2
  refine Finset.fold_congr fun j _ => ?_
  rw [select_apply, broadcast_apply, pos_big_eq, dist_apply i x x1 h1]
  by_cases hn : isNeg lab (gRow i r) j
  · rw [pick_pos hn, (negMask_apply i lab x2 x3 h2 h3 r j).mpr hn, select_one]
  · rw [pick_neg hn, eq_zero_of_ne_one (fun h => hn ((negMask_apply i lab x2 x3 h2 h3 r j).mp h)), select_zero]

/-- The far column: the clamped root of the largest positive squared distance. -/
theorem far_apply (r : Fin 128) :
    k0_pay3 (F := Ideal) (blockFar2 i x x1 x2 x3) (ix2 r (0 : Fin 1)) = hpE x lab (gRow i r) := by
  rw [clampRoot_apply, far2_apply i lab x2 x3 h2 h3 x x1 h1]
  rfl

/-- The near column: the clamped root of the smallest negative squared distance. -/
theorem near_apply (r : Fin 128) :
    k0_pay4 (F := Ideal) (blockDist i x x1) (k0_pay7 x2 x3) (ix2 r (0 : Fin 1)) = hnE x lab (gRow i r) := by
  rw [clampRootMin_apply, near2_apply i lab x2 x3 h2 h3 x x1 h1]
  rfl

/-- The validity column: one on the rows that count, zero on the others. -/
theorem valid_apply (r : Fin 128) :
    k0_pay2 (F := Ideal) (blockDist i x x1) (k0_pay7 x2 x3) (blockFar2 i x x1 x2 x3) (ix2 r (0 : Fin 1))
      = pick (okE x lab (gRow i r)) (1 : EReal) 0 := by
  rw [validCol_apply, far2_apply i lab x2 x3 h2 h3 x x1 h1, near2_apply i lab x2 x3 h2 h3 x x1 h1, neg_big_2_eq, pos_big_2_eq]
  by_cases hok : okE x lab (gRow i r)
  · rw [pick_pos hok, (andi_iff _ _).mpr ⟨(cmp_ogt_iff _ _).mpr hok.1, (cmp_olt_iff _ _).mpr hok.2⟩]
    exact one_bit_real
  · rw [pick_neg hok, eq_zero_of_ne_one (fun h => hok ⟨(cmp_ogt_iff _ _).mp ((andi_iff _ _).mp h).1, (cmp_olt_iff _ _).mp ((andi_iff _ _).mp h).2⟩)]
    exact zero_bit_real

end Rows

end Cert.KernelIdeal.Rows

end
-- ==== Proof.KernelLoss.lean ====
/-
  The kernel program's result is the extremum-first loss of its two arguments. Three steps:
    • what a grid point reads is what the program was given: its matrix block is the whole embedding matrix, its row of
      squared norms is the host's row sums of squares, its 128 labels are labels 128·t … 128·t + 127 and its label row
      is all labels (the two reshapes keep the row-major order);
    • so row `R` of the three stacked columns is `hpE`, `hnE` and the indicator of `okE` at `R`
      (the point is `R / 128`, the local row `R % 128`);
    • the host's tail then selects the rows whose indicator exceeds one half — exactly the counting rows —, sums their
      terms (a sum over the [8192, 1] column is the sum over its 8192 rows), counts them by adding 32-bit ones, and
      divides: `meanOf (total …) (count …)`. The integer read as a real is positive exactly when it is positive, and
      its maximum with one is the maximum taken in the integers.
-/
import proofs.«173457_j28991029248550_2_alg».proof.Proof.KernelRun
import proofs.«173457_j28991029248550_2_alg».proof.Proof.RowMasks

noncomputable section

open Idealize.ShloMosaic Idealize.ShloMosaic.TcCoe Idealize.SL.Sem
open Idealize.ShloMosaic.Pipeline (Dat)

namespace Cert.KernelIdeal.Rows

open Cert.KernelIdeal Cert.KernelIdeal.Gen Idealize.ShloMosaic.ValueIdx Idealize.ShloMosaic.StableHlo Cert.Hardest

variable (m : (ℓ : Loc nD τ sig) → Buf (Elt Ideal) ℓ)

/-- The embeddings and the labels the program was given, on device `c`. -/
abbrev argX (c : Dev nD) : Emb := m ((c.tc : Thread nD τ).loc main_arg0)
abbrev argL (c : Dev nD) : Lab := m ((c.tc : Thread nD τ).loc main_arg1)

/-! ## What a point reads -/

theorem idx_in0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx_in1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_in2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_in3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem coords_val : ∀ t : Fin cfg0.N, (grid0.coords t 0).val = t.val :=
  (by decide +kernel : ∀ t : Fin grid0.N, (grid0.coords t 0).val = t.val)

/-- The row of squared norms the host computes before the region. -/
theorem entry_sq (c : Dev nD) : (V m c main_v4 : S1x8192.Idx → EReal)
    = broadcastInDim S1x8192 ![1] bcast_S8192_S1x8192_1
        (Host.reduceAdd (F := Ideal) (mulf (argX m c) (argX m c)) (constant S_ .f32 0x00000000#32) reducesTo_S8192x128_S8192_d1 h_S_) := by
  dsimp only [Gen.V, Gen.V0]
  simp only [Gen.hostOps0, List.flatten_cons, List.flatten_nil, List.append_nil, List.cons_append, List.nil_append]
  after_results

/-- The labels as a column, -/
theorem entry_labCol (c : Dev nD) : (V m c main_v0 : S8192x1.Idx → BitVec 32)
    = shapeCast S8192x1 (argL m c) shapeCasts_S8192_S8192x1 := by
  dsimp only [Gen.V, Gen.V0]
  simp only [Gen.hostOps0, List.flatten_cons, List.flatten_nil, List.append_nil, List.cons_append, List.nil_append]
  after_results
  rfl

/-- and as a row. -/
theorem entry_labRow (c : Dev nD) : (V m c main_v1 : S1x8192.Idx → BitVec 32)
    = shapeCast S1x8192 (argL m c) shapeCasts_S8192_S1x8192 := by
  dsimp only [Gen.V, Gen.V0]
  simp only [Gen.hostOps0, List.flatten_cons, List.flatten_nil, List.append_nil, List.cons_append, List.nil_append]
  after_results
  rfl

/-- A host row sum of squares is the squared norm. -/
theorem sqRow_apply (x : Emb) (j : Fin 8192) :
    Host.reduceAdd (F := Ideal) (mulf x x) (constant S_ .f32 0x00000000#32) reducesTo_S8192x128_S8192_d1 h_S_ (ix1 j) = sq x j := by
  simp only [Host.reduceAdd, Ideal.hostReduceAdd_def]
  rw [Ideal.hostReduceAdd_single reducesTo_S8192x128_S8192_d1 (by decide)]
  rw [show (constant (F := Ideal) S_ .f32 0x00000000#32) (Shape.Idx.first h_S_) = (0 : EReal) from ofBits_zero, zero_add]
  unfold Hardest.sq
  refine Finset.sum_congr rfl fun k _ => ?_
  have e : (Shape.Reduces.lift (by decide : S8192x128.Reduces [1] S8192) (ix1 j) k) = ix2 j k :=
    funext fun a => Fin.ext (by
      rw [Shape.Reduces.lift_val]
      match a with
      | ⟨0, _⟩ => rfl
      | ⟨1, _⟩ => rfl)
  rw [e]
  rfl

theorem blk0 (c : Dev nD) (t : Fin cfg0.N) : (iblk m c 0 t : Vec Ideal S8192x128 .f32) = argX m c := by
  obtain ⟨e0, e1⟩ := idx_in0 t
  funext j
  unfold iblk
  rw [View.read_apply]
  show V m c main_arg0 (((cfg0.win 0).blk t).view.emb j) = _
  rw [V_main_arg0]
  refine congrArg (m ((c.tc : Thread nD τ).loc main_arg0)) (funext fun a => Fin.ext ?_)
  match a with
  | ⟨0, _⟩ => show win0_0.index t (0 : Fin 2) * 8192 + 1 * (j 0).val = (j 0).val; rw [e0]; omega
  | ⟨1, _⟩ => show win0_0.index t (1 : Fin 2) * 128 + 1 * (j 1).val = (j 1).val; rw [e1]; omega

theorem blk1 (c : Dev nD) (t : Fin cfg0.N) (j : Fin 8192) :
    (iblk m c 1 t : Vec Ideal S1x8192 .f32) (ix2 (0 : Fin 1) j) = sq (argX m c) j := by
  obtain ⟨e0, e1⟩ := idx_in1 t
  unfold iblk
  rw [View.read_apply]
  show (V m c main_v4 : S1x8192.Idx → EReal) (((cfg0.win 1).blk t).view.emb (ix2 (0 : Fin 1) j)) = _
  rw [entry_sq]
  refine (broadcastInDim_apply _ _ _ _ (ix1 j) fun a => ?_).trans (sqRow_apply _ j)
  match a with
  | ⟨0, _⟩ =>
    show j.val = if 8192 = 1 then 0 else win0_1.index t (1 : Fin 2) * 8192 + 1 * j.val
    rw [e1]; simp

theorem blk2 (c : Dev nD) (t : Fin cfg0.N) (r : Fin 128) :
    (iblk m c 2 t : Vec Ideal S128x1 .i32) (ix2 r (0 : Fin 1)) = argL m c (ix1 (gRow (grid0.coords t) r)) := by
  obtain ⟨e0, e1⟩ := idx_in2 t
  have hc := coords_val t
  unfold iblk
  rw [View.read_apply]
  show (V m c main_v0 : S8192x1.Idx → BitVec 32) (((cfg0.win 2).blk t).view.emb (ix2 r (0 : Fin 1))) = _
  rw [entry_labCol]
  refine shapeCast_apply _ _ _ _ ?_
  rw [Shape.rowMajor_val_one, Shape.rowMajor_val_two]
  show 128 * (grid0.coords t 0).val + r.val = (win0_2.index t (0 : Fin 2) * 128 + 1 * r.val) * 1 + (win0_2.index t (1 : Fin 2) * 1 + 1 * 0)
  rw [e0, e1, hc]; omega

theorem blk3 (c : Dev nD) (t : Fin cfg0.N) (j : Fin 8192) :
    (iblk m c 3 t : Vec Ideal S1x8192 .i32) (ix2 (0 : Fin 1) j) = argL m c (ix1 j) := by
  obtain ⟨e0, e1⟩ := idx_in3 t
  unfold iblk
  rw [View.read_apply]
  show (V m c main_v1 : S1x8192.Idx → BitVec 32) (((cfg0.win 3).blk t).view.emb (ix2 (0 : Fin 1) j)) = _
  rw [entry_labRow]
  refine shapeCast_apply _ _ _ _ ?_
  rw [Shape.rowMajor_val_one, Shape.rowMajor_val_two]
  show j.val = (win0_3.index t (0 : Fin 2) * 1 + 1 * 0) * 8192 + (win0_3.index t (1 : Fin 2) * 8192 + 1 * j.val)
  rw [e0, e1]; omega

/-! ## The stacked columns, row by row -/

/-- Row `R` belongs to point `R / 128`, local row `R % 128`. -/
def ptOf (R : Fin 8192) : Fin cfg0.N := pt (ix2 R (0 : Fin 1))
def locOf (R : Fin 8192) : Fin 128 := ⟨R.val % 128, Nat.mod_lt _ (by decide)⟩

theorem gRow_ptOf (R : Fin 8192) : gRow (grid0.coords (ptOf R)) (locOf R) = R := by
  apply Fin.ext
  show 128 * (grid0.coords (ptOf R) 0).val + R.val % 128 = R.val
  rw [coords_val]
  show 128 * (R.val / 128) + R.val % 128 = R.val
  omega

theorem far_row (c : Dev nD) (R : Fin 8192) : far m c (ix2 R (0 : Fin 1)) = hpE (argX m c) (argL m c) R := by
  show (outsAt0 m c (ptOf R)).1 (ix2 (locOf R) (0 : Fin 1)) = _
  rw [outsAt_eq, blk0]
  refine (far_apply (grid0.coords (ptOf R)) (argL m c) (iblk m c 2 (ptOf R)) (iblk m c 3 (ptOf R)) (blk2 m c (ptOf R)) (blk3 m c (ptOf R))
    (argX m c) (iblk m c 1 (ptOf R)) (blk1 m c (ptOf R)) (locOf R)).trans ?_
  rw [gRow_ptOf]

theorem near_row (c : Dev nD) (R : Fin 8192) : near m c (ix2 R (0 : Fin 1)) = hnE (argX m c) (argL m c) R := by
  show (outsAt0 m c (ptOf R)).2.1 (ix2 (locOf R) (0 : Fin 1)) = _
  rw [outsAt_eq, blk0]
  refine (near_apply (grid0.coords (ptOf R)) (argL m c) (iblk m c 2 (ptOf R)) (iblk m c 3 (ptOf R)) (blk2 m c (ptOf R)) (blk3 m c (ptOf R))
    (argX m c) (iblk m c 1 (ptOf R)) (blk1 m c (ptOf R)) (locOf R)).trans ?_
  rw [gRow_ptOf]

theorem valid_row (c : Dev nD) (R : Fin 8192) :
    valid m c (ix2 R (0 : Fin 1)) = pick (okE (argX m c) (argL m c) R) (1 : EReal) 0 := by
  show (outsAt0 m c (ptOf R)).2.2 (ix2 (locOf R) (0 : Fin 1)) = _
  rw [outsAt_eq, blk0]
  refine (valid_apply (grid0.coords (ptOf R)) (argL m c) (iblk m c 2 (ptOf R)) (iblk m c 3 (ptOf R)) (blk2 m c (ptOf R)) (blk3 m c (ptOf R))
    (argX m c) (iblk m c 1 (ptOf R)) (blk1 m c (ptOf R)) (locOf R)).trans ?_
  rw [gRow_ptOf]

/-! ## The tail -/

/-- Folding over the [8192, 1] column is folding over its 8192 rows. -/
theorem fold_col {β : Type} (op : β → β → β) [Std.Commutative op] [Std.Associative op] (b : β) (f : S8192x1.Idx → β) :
    (Finset.univ : Finset S8192x1.Idx).fold op b f = (Finset.univ : Finset (Fin 8192)).fold op b fun R => f (ix2 R (0 : Fin 1)) := by
  have himg : (Finset.univ : Finset (Fin 8192)).image (fun R => (ix2 R (0 : Fin 1) : S8192x1.Idx)) = Finset.univ := by
    apply Finset.eq_univ_of_forall
    intro i
    refine Finset.mem_image.mpr ⟨i 0, Finset.mem_univ _, ?_⟩
    funext a
    match a with
    | ⟨0, _⟩ => rfl
    | ⟨1, _⟩ => exact Fin.ext (by have h : (i 1).val < 1 := (i 1).isLt; show 0 = (i 1).val; omega)
  rw [← himg, Finset.fold_image (fun a _ b _ h => by have := congrFun h 0; exact this)]
  rfl

theorem sum_col (f : S8192x1.Idx → EReal) : ∑ i, f i = ∑ R : Fin 8192, f (ix2 R (0 : Fin 1)) := by
  rw [sum_idx2]
  refine Finset.sum_congr rfl fun R _ => ?_
  rw [Fin.sum_univ_one]

/-- The rows that the tail lets through are the counting rows. -/
theorem mask_row (c : Dev nD) (R : Fin 8192) :
    tailMask (F := Ideal) (valid m c) (ix2 R (0 : Fin 1)) = 1#1 ↔ okE (argX m c) (argL m c) R := by
  show Ideal.cmp .ogt (valid m c (ix2 R (0 : Fin 1))) (Ideal.ofBits .f32 0x3F000000#32) = 1#1 ↔ _
  rw [cmp_ogt_iff, valid_row, ofBits_half]
  by_cases hok : okE (argX m c) (argL m c) R
  · rw [pick_pos hok]
    refine ⟨fun _ => hok, fun _ => ?_⟩
    exact_mod_cast (by norm_num : ((1 / 2 : ℝ)) < 1)
  · rw [pick_neg hok]
    refine ⟨fun h => absurd h ?_, fun h => absurd h hok⟩
    rw [not_lt]
    exact_mod_cast (by norm_num : (0 : ℝ) ≤ 1 / 2)

theorem count_eq (c : Dev nD) (u : S_.Idx) :
    tailCount (F := Ideal) (valid m c) u = count (okE (argX m c) (argL m c)) := by
  unfold tailCount
  rw [Host.reduce_eq_fold]
  rw [Finset.filter_true_of_mem fun i _ => funext fun b => b.elim0]
  rw [fold_col]
  unfold Hardest.count
  refine Finset.fold_congr fun R _ => ?_
  show ((tailMask (F := Ideal) (valid m c) (ix2 R (0 : Fin 1))).setWidth 32 : BitVec 32) = _
  by_cases hok : okE (argX m c) (argL m c) R
  · rw [pick_pos hok, (mask_row m c R).mpr hok]; rfl
  · rw [pick_neg hok, eq_zero_of_ne_one (fun h => hok ((mask_row m c R).mp h))]; rfl

theorem total_eq (c : Dev nD) (u : S_.Idx) :
    tailTotal (F := Ideal) (far m c) (near m c) (valid m c) u
      = total (okE (argX m c) (argL m c)) (hpE (argX m c) (argL m c)) (hnE (argX m c) (argL m c)) := by
  unfold tailTotal
  simp only [Host.reduceAdd, Ideal.hostReduceAdd_def]
  rw [Ideal.hostReduceAdd_total reducesTo_S8192x1_S_d0_1 (fun b => b.elim0)]
  rw [show (constant (F := Ideal) S_ .f32 0x00000000#32) (Shape.Idx.first h_S_) = (0 : EReal) from ofBits_zero, zero_add, sum_col]
  unfold Hardest.total
  refine Finset.sum_congr rfl fun R _ => ?_
  rw [select_apply]
  by_cases hok : okE (argX m c) (argL m c) R
  · rw [pick_pos hok, (mask_row m c R).mpr hok, select_one]
    show max (far m c (ix2 R (0 : Fin 1)) - near m c (ix2 R (0 : Fin 1)) + margin) floorv = _
    rw [far_row, near_row]; rfl
  · rw [pick_neg hok, eq_zero_of_ne_one (fun h => hok ((mask_row m c R).mp h)), select_zero]
    exact ofBits_zero

/-- The last three operations are the mean. -/
theorem mean_apply (tot : EReal) (n : BitVec 32) :
    Scalar.select (Ideal.cmp .ogt (((n.toInt : ℝ) : EReal)) (Ideal.ofBits .f32 0x00000000#32))
      (Ideal.div tot (max (((n.toInt : ℝ) : EReal)) (Ideal.ofBits .f32 0x3F800000#32))) (Ideal.ofBits .f32 0x00000000#32)
      = meanOf tot n := by
  unfold meanOf
  rw [ofBits_zero, ofBits_one]
  have hmax : max (((n.toInt : ℝ) : EReal)) 1 = (((max n.toInt 1 : ℤ) : ℝ) : EReal) := by
    rcases le_total n.toInt 1 with h | h
    · rw [max_eq_right h, max_eq_right (by exact_mod_cast h)]; norm_num
    · rw [max_eq_left h, max_eq_left (by exact_mod_cast h)]
  rw [hmax]
  by_cases hpos : 0 < n.toInt
  · have ha : (0 : EReal) < ((n.toInt : ℝ) : EReal) := by exact_mod_cast hpos
    have hb : Ideal.cmp .ogt (((n.toInt : ℝ) : EReal)) 0 = 1#1 := (cmp_ogt_iff _ _).mpr ha
    rw [pick_pos hpos, hb, select_one]
  · have hb : Ideal.cmp .ogt (((n.toInt : ℝ) : EReal)) 0 = 0#1 :=
      eq_zero_of_ne_one (fun h => hpos (by have h' := (cmp_ogt_iff _ _).mp h; exact_mod_cast h'))
    rw [pick_neg hpos, hb, select_zero]

/-- The program's result: the extremum-first loss of its arguments. -/
theorem tail_eq (c : Dev nD) :
    tail (F := Ideal) (far m c) (near m c) (valid m c) = fun _ => lossE (argX m c) (argL m c) := by
  funext u
  show Scalar.select (Ideal.cmp .ogt ((((tailCount (F := Ideal) (valid m c) u).toInt : ℝ) : EReal)) (Ideal.ofBits .f32 0x00000000#32))
      (Ideal.div (tailTotal (F := Ideal) (far m c) (near m c) (valid m c) u)
        (max ((((tailCount (F := Ideal) (valid m c) u).toInt : ℝ) : EReal)) (Ideal.ofBits .f32 0x3F800000#32)))
      (Ideal.ofBits .f32 0x00000000#32) = _
  rw [mean_apply, count_eq, total_eq]
  rfl

end Cert.KernelIdeal.Rows

end
-- ==== Proof.RefLoss1.lean ====
/-
  The reference's squared distances, read at an index. Row sums of squares start from the zero word (the real 0);
  the product against the transpose at (i, j) is the inner product of rows i and j; stage 11 puts them together by the
  product identity, and stage 14 is the clamped square root of that.
-/
import proofs.«173457_j28991029248550_2_alg».proof.Proof.RefReadP
import proofs.«173457_j28991029248550_2_alg».proof.Proof.HardestLaw
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.ReadP
open Idealize.ShloMosaic Idealize.ShloMosaic.ValueIdx

/-- The embeddings and labels as the reference's argument arrays. -/
abbrev X0 := (⟨S8192x128, .f32⟩ : BufTy).Contents (Elt Ideal)
abbrev X1 := (⟨S8192, .i32⟩ : BufTy).Contents (Elt Ideal)

/-! ## Indices by coordinates -/

theorem i_v4 (i j : Fin 8192) : idx_main_v2 (idx_main_v4 (ix2 i j)) = ix1 i :=
  funext fun a => Fin.ext (by match a with | ⟨0, _⟩ => rfl)
theorem i_v5 (i j : Fin 8192) : idx_main_v3 (idx_main_v5 (ix2 i j)) = ix1 j :=
  funext fun a => Fin.ext (by match a with | ⟨0, _⟩ => rfl)
theorem i_v1 (i : Fin 8192) (k : Fin 128) : idx_main_v1 (ix1 i) k = ix2 i k :=
  funext fun a => Fin.ext (by match a with | ⟨0, _⟩ => rfl | ⟨1, _⟩ => rfl)
theorem i_l8 (i j : Fin 8192) (k : Fin 128) : lidx_main_v8 (ix2 i j) k = ix2 i k :=
  funext fun a => Fin.ext (by match a with | ⟨0, _⟩ => rfl | ⟨1, _⟩ => rfl)
theorem i_r8 (i j : Fin 8192) (k : Fin 128) : idx_main_v7 (ridx_main_v8 (ix2 i j) k) = ix2 j k :=
  funext fun a => Fin.ext (by match a with | ⟨0, _⟩ => rfl | ⟨1, _⟩ => rfl)

/-! ## The squared distance -/

/-- A row's sum of squares: the sum starts from the zero word, which is the real 0. -/
theorem v1_at (x0 : X0) (i : Fin 8192) : val_main_v1 (F := Ideal) x0 (ix1 i) = Hardest.sq x0 i := by
  rw [val_main_v1_apply, val_main_cst_apply, Ideal.ofBits_def, Hardest.ofBits_zero, zero_add]
  unfold Hardest.sq
  refine Finset.sum_congr rfl fun k _ => ?_
  rw [i_v1, val_main_v0_apply, Ideal.mulf_def]

/-- The matrix product against the transpose, at (i, j), is the inner product of rows i and j. -/
theorem v8_at (x0 : X0) (i j : Fin 8192) : val_main_v8 (F := Ideal) x0 (ix2 i j) = Hardest.cross x0 i j := by
  rw [val_main_v8_apply]
  unfold Hardest.cross
  refine Finset.sum_congr rfl fun k _ => ?_
  rw [i_l8, val_main_v7_apply, i_r8]

/-- Stage 11 at (i, j) is |x i|² + |x j|² - 2 · ⟨x i, x j⟩. -/
theorem v11_at (x0 : X0) (i j : Fin 8192) : val_main_v11 (F := Ideal) x0 (ix2 i j) = Hardest.dist2 x0 i j := by
  rw [val_main_v11_apply, val_main_v6_apply, val_main_v4_apply, val_main_v2_apply, val_main_v5_apply,
    val_main_v3_apply, val_main_v10_apply, val_main_v9_apply, val_main_cst_0_apply, i_v4, i_v5, v1_at, v1_at, v8_at,
    Ideal.subf_def, Ideal.addf_def, Ideal.mulf_def, Ideal.ofBits_def]
  rfl

/-- Stage 14 at (i, j) is the clamped square root of the squared distance. -/
theorem v14_at (x0 : X0) (i j : Fin 8192) :
    val_main_v14 (F := Ideal) x0 (ix2 i j) = Hardest.root (Hardest.dist2 x0 i j) := by
  rw [val_main_v14_apply, val_main_v13_apply, val_main_v12_apply, val_main_cst_1_apply, v11_at,
    Ideal.hostUnary_sqrt_def, Ideal.maximumf_def, Ideal.ofBits_def]
  rfl

end Cert.ReferenceIdeal.RefValue

end
-- ==== Proof.RefLoss2.lean ====
/-
  The reference's masks, masked distances and row reductions, read at an index. The positive mask at (i, j) says the
  labels agree off the diagonal, the negative mask that they differ; a masked distance keeps the clamped root on its
  mask and is -∞ (for the maximum) or +∞ (for the minimum) elsewhere; a reduction along a row is the fold over the
  columns, in any order since its body is commutative and associative; an or-fold of bits says that some entry is set.
-/
import proofs.«173457_j28991029248550_2_alg».proof.Proof.RefLoss1
import Idealize.ShloMosaic.Lib.Affine

noncomputable section

namespace Cert.ReferenceIdeal.RefValue

open Cert.ReferenceIdeal Cert.ReferenceIdeal.Gen Cert.ReferenceIdeal.ReadP
open Idealize.ShloMosaic Idealize.ShloMosaic.ValueIdx

/-! ## One-bit words -/

theorem not_eq_one (c : BitVec 1) : ~~~c = 1#1 ↔ ¬ c = 1#1 := by
  rcases BitVec.eq_zero_or_eq_one c with rfl | rfl <;> decide

theorem andi_not_eq_one (c e : BitVec 1) : IntOp.andi c (~~~e) = 1#1 ↔ c = 1#1 ∧ ¬ e = 1#1 := by
  rcases BitVec.eq_zero_or_eq_one c with rfl | rfl <;> rcases BitVec.eq_zero_or_eq_one e with rfl | rfl <;> decide

theorem andi_eq_one (c e : BitVec 1) : IntOp.andi c e = 1#1 ↔ c = 1#1 ∧ e = 1#1 := by
  rcases BitVec.eq_zero_or_eq_one c with rfl | rfl <;> rcases BitVec.eq_zero_or_eq_one e with rfl | rfl <;> decide

theorem ori_eq_one (c e : BitVec 1) : IntOp.ori c e = 1#1 ↔ c = 1#1 ∨ e = 1#1 := by
  rcases BitVec.eq_zero_or_eq_one c with rfl | rfl <;> rcases BitVec.eq_zero_or_eq_one e with rfl | rfl <;> decide

/-- A select on a bit that says p is the choice on p. -/
theorem select_eq_pick {α : Type} (c : BitVec 1) (p : Prop) (h : c = 1#1 ↔ p) (a b : α) :
    Scalar.select c a b = Hardest.pick p a b := by
  by_cases hp : p
  · rw [h.mpr hp, select_one, Hardest.pick_pos hp]
  · rw [eq_zero_of_ne_one (fun hc => hp (h.mp hc)), select_zero, Hardest.pick_neg hp]

/-- An or-fold of one-bit words is 1 exactly when its start or one of its entries is. -/
theorem fold_ori_eq_one {ι : Type} [DecidableEq ι] (s : Finset ι) (b : BitVec 1) (f : ι → BitVec 1) :
    s.fold IntOp.ori b f = 1#1 ↔ b = 1#1 ∨ ∃ j ∈ s, f j = 1#1 := by
  induction s using Finset.induction_on with
  | empty => simp
  | insert a s ha ih =>
    rw [Finset.fold_insert ha, ori_eq_one, ih]
    constructor
    · rintro (h | h | ⟨j, hj, hfj⟩)
      · exact Or.inr ⟨a, Finset.mem_insert_self _ _, h⟩
      · exact Or.inl h
      · exact Or.inr ⟨j, Finset.mem_insert_of_mem hj, hfj⟩
    · rintro (h | ⟨j, hj, hfj⟩)
      · exact Or.inr (Or.inl h)
      · rcases Finset.mem_insert.mp hj with rfl | hj'
        · exact Or.inl hfj
        · exact Or.inr (Or.inr ⟨j, hj', hfj⟩)

/-! ## The masks -/

theorem i_v17 (i j : Fin 8192) : idx_main_v15 (idx_main_v17 (ix2 i j)) = ix1 j :=
  funext fun a => Fin.ext (by match a with | ⟨0, _⟩ => rfl)
theorem i_v18 (i j : Fin 8192) : idx_main_v16 (idx_main_v18 (ix2 i j)) = ix1 i :=
  funext fun a => Fin.ext (by match a with | ⟨0, _⟩ => rfl)

/-- The label comparison at (i, j) compares row j's label with row i's. -/
theorem v19_at (x1 : X1) (i j : Fin 8192) :
    val_main_v19 (F := Ideal) x1 (ix2 i j) = IntOp.cmpi .eq (x1 (ix1 j)) (x1 (ix1 i)) := by
  rw [val_main_v19_apply, val_main_v17_apply, val_main_v15_apply, val_main_v18_apply, val_main_v16_apply, i_v17, i_v18]

/-- The diagonal: the two coordinate words agree exactly when the coordinates do, both being below 2³². -/
theorem v24_at (i j : Fin 8192) : val_main_v24 (F := Ideal) (ix2 i j) = 1#1 ↔ i = j := by
  rw [val_main_v24_apply, val_main_v23_apply, val_main_v20_apply, val_main_v22_apply, val_main_c_apply,
    val_main_v21_apply, IntOp.cmpi_eq]
  show (BitVec.ofNat 32 i.val) + 0#32 = BitVec.ofNat 32 j.val ↔ i = j
  rw [BitVec.add_zero]
  constructor
  · intro h
    have h2 := congrArg BitVec.toNat h
    simp only [BitVec.toNat_ofNat] at h2
    apply Fin.ext
    have hi := i.isLt
    have hj := j.isLt
    omega
  · rintro rfl; rfl

/-- The positive mask: equal labels off the diagonal. -/
theorem v26_at (x1 : X1) (i j : Fin 8192) :
    val_main_v26 (F := Ideal) x1 (ix2 i j) = 1#1 ↔ Hardest.isPos x1 i j := by
  rw [val_main_v26_apply, val_main_v25_apply, v19_at, andi_not_eq_one, IntOp.cmpi_eq, v24_at]
  unfold Hardest.isPos
  exact ⟨fun h => ⟨h.1.symm, h.2⟩, fun h => ⟨h.1.symm, h.2⟩⟩

/-- The negative mask: different labels. -/
theorem v27_at (x1 : X1) (i j : Fin 8192) :
    val_main_v27 (F := Ideal) x1 (ix2 i j) = 1#1 ↔ Hardest.isNeg x1 i j := by
  rw [val_main_v27_apply, v19_at, not_eq_one, IntOp.cmpi_eq]
  unfold Hardest.isNeg
  exact ⟨fun h e => h e.symm, fun h e => h e.symm⟩

/-! ## The masked distances -/

/-- Positive pairs keep their distance, the others are filled with -∞. -/
theorem v28_at (x0 : X0) (x1 : X1) (i j : Fin 8192) :
    val_main_v28 (F := Ideal) x0 x1 (ix2 i j)
      = Hardest.pick (Hardest.isPos x1 i j) (Hardest.root (Hardest.dist2 x0 i j)) ⊥ := by
  rw [val_main_v28_apply, val_main_call0_v0_apply, val_main_cst_2_apply, v14_at, Ideal.ofBits_def,
    Hardest.ofBits_ninf]
  exact select_eq_pick _ _ (v26_at x1 i j) _ _

/-- Negative pairs keep their distance, the others are filled with +∞. -/
theorem v30_at (x0 : X0) (x1 : X1) (i j : Fin 8192) :
    val_main_v30 (F := Ideal) x0 x1 (ix2 i j)
      = Hardest.pick (Hardest.isNeg x1 i j) (Hardest.root (Hardest.dist2 x0 i j)) ⊤ := by
  rw [val_main_v30_apply, val_main_call1_v0_apply, val_main_cst_4_apply, v14_at, Ideal.ofBits_def,
    Hardest.ofBits_pinf]
  exact select_eq_pick _ _ (v27_at x1 i j) _ _

/-! ## Row reductions -/

theorem red_d1 : S8192x8192.Reduces [1] S8192 := by decide

/-- Row i with column j inserted is the index (i, j). -/
theorem lift_d1 (i j : Fin 8192) : red_d1.lift (ix1 i) j = ix2 i j :=
  funext fun a => Fin.ext (by match a with | ⟨0, _⟩ => rfl | ⟨1, _⟩ => rfl)

/-- A reduction along the rows with a commutative, associative body, at row i: the fold over the columns j of the
    entries at (i, j), from the initial value. -/
theorem reduce_row {α : Type} (f : α → α → α) [Std.Commutative f] [Std.Associative f] (y : S8192x8192.Idx → α)
    (init : S_.Idx → α) (i : Fin 8192) :
    Host.reduce f y init reducesTo_S8192x8192_S8192_d1 h_S_ (ix1 i)
      = (Finset.univ : Finset (Fin 8192)).fold f (init (Shape.Idx.first h_S_)) (fun j => y (ix2 i j)) := by
  rw [Host.reduce_eq_fold_single f y init reducesTo_S8192x8192_S8192_d1 red_d1 h_S_ (ix1 i)]
  exact congrArg (fun g : Fin 8192 → α => (Finset.univ : Finset (Fin 8192)).fold f (init (Shape.Idx.first h_S_)) g)
    (funext fun j => congrArg y (lift_d1 i j))

/-- Stage 29: the largest masked distance of the row, from -∞. -/
theorem v29_at (x0 : X0) (x1 : X1) (i : Fin 8192) :
    val_main_v29 (F := Ideal) x0 x1 (ix1 i) = Hardest.hpR x0 x1 i := by
  unfold val_main_v29
  rw [reduce_row, val_main_cst_3_apply, Ideal.ofBits_def, Hardest.ofBits_ninf]
  unfold Hardest.hpR
  exact congrArg (fun g : Fin 8192 → EReal => (Finset.univ : Finset (Fin 8192)).fold max ⊥ g)
    (funext fun j => v28_at x0 x1 i j)

/-- Stage 31: the smallest masked distance of the row, from +∞. -/
theorem v31_at (x0 : X0) (x1 : X1) (i : Fin 8192) :
    val_main_v31 (F := Ideal) x0 x1 (ix1 i) = Hardest.hnR x0 x1 i := by
  unfold val_main_v31
  rw [reduce_row, val_main_cst_5_apply, Ideal.ofBits_def, Hardest.ofBits_pinf]
  unfold Hardest.hnR
  exact congrArg (fun g : Fin 8192 → EReal => (Finset.univ : Finset (Fin 8192)).fold min ⊤ g)
    (funext fun j => v30_at x0 x1 i j)

/-- The row has a positive partner. -/
theorem v32_at (x1 : X1) (i : Fin 8192) :
    val_main_v32 (F := Ideal) x1 (ix1 i) = 1#1 ↔ ∃ j, Hardest.isPos x1 i j := by
  unfold val_main_v32
  rw [reduce_row, val_main_c_6_apply, fold_ori_eq_one]
  constructor
  · rintro (h | ⟨j, _, hj⟩)
    · exact absurd h (by decide)
    · exact ⟨j, (v26_at x1 i j).mp hj⟩
  · rintro ⟨j, hj⟩
    exact Or.inr ⟨j, Finset.mem_univ _, (v26_at x1 i j).mpr hj⟩

/-- The row has a negative partner. -/
theorem v33_at (x1 : X1) (i : Fin 8192) :
    val_main_v33 (F := Ideal) x1 (ix1 i) = 1#1 ↔ ∃ j, Hardest.isNeg x1 i j := by
  unfold val_main_v33
  rw [reduce_row, val_main_c_7_apply, fold_ori_eq_one]
  constructor
  · rintro (h | ⟨j, _, hj⟩)
    · exact absurd h (by decide)
    · exact ⟨j, (v27_at x1 i j).mp hj⟩
  · rintro ⟨j, hj⟩
    exact Or.inr ⟨j, Finset.mem_univ _, (v27_at x1 i j).mpr hj⟩

/-- Stage 34: the row counts. -/
theorem v34_at (x1 : X1) (i : Fin 8192) : val_main_v34 (F := Ideal) x1 (ix1 i) = 1#1 ↔ Hardest.okR x1 i := by
  rw [val_main_v34_apply, andi_eq_one, v32_at, v33_at]
  rfl

end Cert.ReferenceIdeal.RefValue

end
-- ==== Proof.RefLoss.lean ====
/-
  The reference's loss. Each row's term is max (hp - hn + margin) floor on its two extrema; rows that count keep
  their term and the others contribute 0; the total is the sum over the rows and the count adds one word per counting
  row; the result is the total over the count (at least one) when the count is positive, and 0 otherwise. Read stage
  by stage this is the root-first loss of the two argument arrays.
-/
import proofs.«173457_j28991029248550_2_alg».proof.Proof.RefLoss2

noncomputable section

namespace Cert.ReferenceIdeal.RefValue

open Cert.ReferenceIdeal Cert.ReferenceIdeal.Gen Cert.ReferenceIdeal.ReadP
open Idealize.ShloMosaic Idealize.ShloMosaic.ValueIdx

/-! ## The rows' terms -/

/-- Stage 39: max (hp - hn + margin) floor, on the row's two extrema. -/
theorem v39_at (x0 : X0) (x1 : X1) (i : Fin 8192) :
    val_main_v39 (F := Ideal) x0 x1 (ix1 i)
      = Hardest.rowLoss (Hardest.hpR x0 x1 i) (Hardest.hnR x0 x1 i) := by
  rw [val_main_v39_apply, val_main_v37_apply, val_main_v35_apply, val_main_v36_apply, val_main_cst_8_apply,
    val_main_v38_apply, val_main_cst_9_apply, v29_at, v31_at, Ideal.maximumf_def, Ideal.addf_def, Ideal.subf_def,
    Ideal.ofBits_def, Ideal.ofBits_def]
  rfl

/-- Stage 42: a counting row keeps its term, any other row contributes the zero word, the real 0. -/
theorem v42_at (x0 : X0) (x1 : X1) (i : Fin 8192) :
    val_main_v42 (F := Ideal) x0 x1 (ix1 i)
      = Hardest.pick (Hardest.okR x1 i) (Hardest.rowLoss (Hardest.hpR x0 x1 i) (Hardest.hnR x0 x1 i)) 0 := by
  rw [val_main_v42_apply, val_main_call2_v1_apply, val_main_call2_v0_apply, val_main_cst_11_apply, v39_at,
    Ideal.ofBits_def, Hardest.ofBits_zero]
  exact select_eq_pick _ _ (v34_at x1 i) _ _

/-! ## The total -/

/-- A rank-1 index is its one coordinate. -/
def idxEquiv1 : S8192.Idx ≃ Fin 8192 where
  toFun j := j 0
  invFun := ix1
  left_inv j := (eq_ix1 j).symm
  right_inv _ := rfl

/-- Stage 43: the sum over all rows, from the zero word, re-indexed by the row number. -/
theorem v43_at (x0 : X0) (x1 : X1) (j : S_.Idx) :
    val_main_v43 (F := Ideal) x0 x1 j
      = Hardest.total (Hardest.okR x1) (Hardest.hpR x0 x1) (Hardest.hnR x0 x1) := by
  rw [val_main_v43_apply, val_main_cst_12_apply, Ideal.ofBits_def, Hardest.ofBits_zero, zero_add]
  unfold Hardest.total
  exact (Equiv.sum_comp idxEquiv1.symm _).symm.trans (Finset.sum_congr rfl fun i _ => v42_at x0 x1 i)

/-! ## The count -/

/-- Widening a bit that says p: the word 1 on p, the word 0 otherwise. -/
theorem setWidth_bit (c : BitVec 1) (p : Prop) (h : c = 1#1 ↔ p) :
    c.setWidth 32 = Hardest.pick p 1#32 0#32 := by
  by_cases hp : p
  · rw [h.mpr hp, Hardest.pick_pos hp]; rfl
  · rw [eq_zero_of_ne_one (fun hc => hp (h.mp hc)), Hardest.pick_neg hp]; rfl

theorem v40_at (x1 : X1) (i : Fin 8192) :
    val_main_v40 (F := Ideal) x1 (ix1 i) = Hardest.pick (Hardest.okR x1 i) 1#32 0#32 := by
  rw [val_main_v40_apply]
  exact setWidth_bit _ _ (v34_at x1 i)

/-- Stage 41: the words of the counting rows added up from 0. The result has a single index, so every row reduces
    into it; word addition is commutative and associative, so the order is immaterial and the rows can be numbered
    by their coordinate. -/
theorem v41_at (x1 : X1) (j : S_.Idx) : val_main_v41 (F := Ideal) x1 j = Hardest.count (Hardest.okR x1) := by
  unfold val_main_v41
  rw [Host.reduce_eq_fold, val_main_c_10_apply,
    Finset.filter_true_of_mem (fun i _ => funext fun b => b.elim0),
    ← Finset.map_univ_equiv idxEquiv1.symm, Finset.fold_map]
  unfold Hardest.count
  exact Finset.fold_congr fun k _ => v40_at x1 k

/-! ## The mean -/

/-- The signed maximum with the word 1, read as an integer, is the integers' maximum with 1. -/
theorem maxsi_one_toInt (n : BitVec 32) : (IntOp.maxsi n 1#32).toInt = max n.toInt 1 := by
  have h1 : (1#32 : BitVec 32).toInt = 1 := by decide
  unfold IntOp.maxsi
  by_cases h : (1#32 : BitVec 32).slt n
  · rw [if_pos h]
    have h' : (1#32 : BitVec 32).toInt < n.toInt := BitVec.slt_iff_toInt_lt.mp h
    rw [h1] at h'
    exact (max_eq_left (le_of_lt h')).symm
  · rw [if_neg h, h1]
    have h' : ¬ (1#32 : BitVec 32).toInt < n.toInt := fun hh => h (BitVec.slt_iff_toInt_lt.mpr hh)
    rw [h1] at h'
    exact (max_eq_right (not_lt.mp h')).symm

/-- The last stage at its one index: the total over the count when some row counts, the zero word otherwise. -/
theorem v48_at (x0 : X0) (x1 : X1) (j : S_.Idx) :
    val_main_v48 (F := Ideal) x0 x1 j = Hardest.lossR x0 x1 := by
  rw [val_main_v48_apply, val_main_v44_apply, val_main_v47_apply, val_main_v46_apply, val_main_v45_apply,
    val_main_c_13_apply, val_main_c_14_apply, val_main_call3_v0_apply, val_main_cst_15_apply, v41_at, v43_at,
    Ideal.hostDivf_def, Ideal.ofBits_def, Hardest.ofBits_zero]
  unfold Hardest.lossR Hardest.loss Hardest.meanOf
  have hs : FloatOps.sitofp (F := Ideal) .f32 (IntOp.maxsi (Hardest.count (Hardest.okR x1)) 1#32)
      = (((max (Hardest.count (Hardest.okR x1)).toInt 1 : ℤ) : ℝ) : EReal) := by
    show (((IntOp.maxsi (Hardest.count (Hardest.okR x1)) 1#32).toInt : ℝ) : EReal) = _
    rw [maxsi_one_toInt]
  rw [hs]
  refine select_eq_pick _ _ ?_ _ _
  have h0 : (0#32 : BitVec 32).toInt = 0 := by decide
  rw [IntOp.cmpi_sgt, h0]

/-- The reference's result is the root-first loss of its two argument arrays. -/
theorem ref_loss (x0 : (⟨S8192x128, .f32⟩ : BufTy).Contents (Elt Ideal)) (x1 : (⟨S8192, .i32⟩ : BufTy).Contents (Elt Ideal)) :
    Cert.ReferenceIdeal.ReadP.val_main_v48 (F := Ideal) x0 x1 = fun _ => Cert.Hardest.lossR x0 x1 :=
  funext fun j => v48_at x0 x1 j

end Cert.ReferenceIdeal.RefValue

end
-- ==== Proof.FiniteInputs.lean ====
/-
  The precondition says that every entry of the embedding matrix is finite: `|x| < +∞` holds at every index (a
  conjunction over all entries that is true). Over the extended reals `|x| = max x (-x)`, so an entry is neither `⊤`
  (then `|x| = ⊤`) nor `⊥` (then `-x = ⊤`).
-/
import proofs.«173457_j28991029248550_2_alg».proof.Pre_finite_inputs
import proofs.«173457_j28991029248550_2_alg».proof.Proof.HardestLaw
import Idealize.ShloMosaic.Lib.ReduceAll
import Idealize.ShloMosaic.PureOps.Ideal.Laws

noncomputable section

open Idealize.ShloMosaic

namespace Cert.Hardest

open Cert.Pre_finite_inputs Idealize.ShloMosaic.ValueIdx

theorem finite_of_pre [Facts] (x : FVec Ideal S8192x128 .f32) (l : IVec S8192 32)
    (h : fn (F := Ideal) x l = fun _ => 1#1) : Finite x := by
  haveI : Subsingleton S_.Idx := ⟨fun a b => funext fun d => d.elim0⟩
  intro i
  have h0 := congrFun h ValueIdx.ix0
  dsimp only [fn] at h0
  have hi := Host.reduce_andi_all _ _ _ _ _ h0 i
  have hlt : max (x i) (-(x i)) < (⊤ : EReal) := by
    have hb : BitVec.ofBool (decide (max (x i) (-(x i)) < Ideal.ofBits .f32 0x7F800000#32)) = 1#1 := hi
    rw [ofBits_pinf] at hb
    cases hd : decide (max (x i) (-(x i)) < (⊤ : EReal))
    · rw [hd] at hb; exact absurd hb (by decide)
    · exact of_decide_eq_true hd
  constructor
  · intro hbot
    rw [hbot] at hlt
    simp at hlt
  · intro htop
    rw [htop] at hlt
    simp at hlt

end Cert.Hardest

end
-- ==== Proof.RefRunW.lean ====
/-
  The reference program's run, read back one operation at a time. The reference's @main is a straight line of 72 host
  operations in which every buffer is written by exactly one operation and read only by later ones. For such a line the
  FINAL valuation `R = after ops V` satisfies one equation per operation, `R y = f (R a) (R b)`: the result is not written
  again, and the operands are not written at or after the operation. Going through the line in order, stage by stage,
  `R main_vN` is the stage `val_main_vN` of the two arguments (the reference read one operation at a time): an operation's
  equation with its operands' stages substituted is that stage's definition unfolded once. Every step is over small
  terms; the composed term of all 72 operations is never formed. For the operations of an inlined call the operation's
  function is given by name, so that the typed references' casts disappear where the operation is identified, over
  variables, and never stand around a stage's value (a cast around the last selection would otherwise make the comparison
  evaluate the 8192-term integer sum under it).
-/
import proofs.«173457_j28991029248550_2_alg».proof.Proof.RefOpsP
import proofs.«173457_j28991029248550_2_alg».proof.Proof.RefReadP
import Idealize.ShloMosaic.Lib.StableHlo.Run

noncomputable section

namespace Cert.ReferenceIdeal.RunW

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.OpsP

/-! ## A straight line in which every buffer is written at most once

For a line `ops` whose `k`-th operation writes exactly the reference `ws[k]`, the final contents of a reference that no
operation from position `k` on writes are its contents after the first `k` operations. So in a line that writes
every buffer once, and reads a buffer only after the operation that writes it, the FINAL valuation `R = after ops V`
satisfies one equation per operation, `R y = f (R a) (R b)`: the result is not written again, and the operands are
not written at or after the operation. The composed term of the last result is then read off these equations one
operation at a time, each step over small terms. -/

section SingleAssignment

variable {τ : Topo} {sig : RefSig} {Val : EltTy → Type}

/-- Two lines run one after the other. -/
theorem after_append' (l₁ l₂ : List (HloOp τ sig Val)) (V : Valuation τ sig Val) :
    after (l₁ ++ l₂) V = after l₂ (after l₁ V) := by
  induction l₁ generalizing V with
  | nil => rfl
  | cons op l ih => exact ih _

/-- `ws` lists what the operations write, position by position. -/
abbrev WritesAt (ops : List (HloOp τ sig Val)) (ws : List (Ref sig .tc)) : Prop :=
  List.Forall₂ (fun op w => op.writes = {Proc.devRef (τ := τ) .tc w}) ops ws

/-- A reference none of the operations writes keeps its contents. -/
theorem after_frame {ops : List (HloOp τ sig Val)} {ws : List (Ref sig .tc)} (hw : WritesAt ops ws)
    {r : Ref sig .tc} (hr : r ∉ ws) (V : Valuation τ sig Val) :
    after ops V (Proc.devRef .tc r) = V (Proc.devRef .tc r) := by
  induction hw generalizing V with
  | nil => rfl
  | @cons op w ops ws h _ ih =>
    rw [after_cons, ih (fun hm => hr (List.mem_cons_of_mem _ hm)),
      op.result_of_not_mem V (by
        rw [h, Finset.mem_singleton]
        exact fun e => hr (Proc.devRef_injective _ e ▸ List.mem_cons_self))]

/-- The final contents of a reference that nothing from position `k` on writes: its contents after the first `k`. -/
theorem after_eq_take {ops : List (HloOp τ sig Val)} {ws : List (Ref sig .tc)} (hw : WritesAt ops ws) (k : Nat)
    {r : Ref sig .tc} (hr : r ∉ ws.drop k) (V : Valuation τ sig Val) :
    after ops V (Proc.devRef .tc r) = after (ops.take k) V (Proc.devRef .tc r) := by
  conv_lhs => rw [← List.take_append_drop k ops, after_append']
  exact after_frame (List.forall₂_drop k hw) hr _

/-- The final contents of the reference operation `k` writes, when nothing later writes it: what the operation left. -/
theorem after_at {ops : List (HloOp τ sig Val)} {ws : List (Ref sig .tc)} (hw : WritesAt ops ws) (k : Nat)
    {op : HloOp τ sig Val} (hop : ops[k]? = some op) {y : Ref sig .tc} (hy : y ∉ ws.drop (k + 1)) (V : Valuation τ sig Val) :
    after ops V (Proc.devRef .tc y) = op.result (after (ops.take k) V) (Proc.devRef .tc y) := by
  rw [after_eq_take hw (k + 1) hy, List.take_succ, hop, after_append']
  rfl

variable {ops : List (HloOp τ sig Val)} {ws : List (Ref sig .tc)} {x a b c y : Ref sig .tc}

/-- The equation of a constant at position `k`. -/
theorem eq_nullary (hw : WritesAt ops ws) (k : Nat) {v : y.ty.Contents Val} {hy} (hop : ops[k]? = some (nullary y v hy)) (hy' : y ∉ ws.drop (k + 1))
    (V : Valuation τ sig Val) :
    after ops V (Proc.devRef .tc y) = v := by
  rw [after_at hw k hop hy', nullary_result]

/-- The equation of a one-operand operation at position `k`. -/
theorem eq_unary (hw : WritesAt ops ws) (k : Nat) {f : x.ty.Contents Val → y.ty.Contents Val} {hx hy} (hop : ops[k]? = some (unary x y f hx hy))
    (hy' : y ∉ ws.drop (k + 1)) (hx' : x ∉ ws.drop k) (V : Valuation τ sig Val) :
    after ops V (Proc.devRef .tc y) = f (after ops V (Proc.devRef .tc x)) := by
  rw [after_at hw k hop hy', unary_result, after_eq_take hw k hx']

/-- The equation of a two-operand operation at position `k`. -/
theorem eq_binary (hw : WritesAt ops ws) (k : Nat) {f : a.ty.Contents Val → b.ty.Contents Val → y.ty.Contents Val} {ha hb hy}
    (hop : ops[k]? = some (binary a b y f ha hb hy))
    (hy' : y ∉ ws.drop (k + 1)) (ha' : a ∉ ws.drop k) (hb' : b ∉ ws.drop k) (V : Valuation τ sig Val) :
    after ops V (Proc.devRef .tc y) = f (after ops V (Proc.devRef .tc a)) (after ops V (Proc.devRef .tc b)) := by
  rw [after_at hw k hop hy', binary_result, after_eq_take hw k ha', after_eq_take hw k hb']

/-- The equation of a three-operand operation at position `k`. -/
theorem eq_ternary (hw : WritesAt ops ws) (k : Nat) {f : c.ty.Contents Val → a.ty.Contents Val → b.ty.Contents Val → y.ty.Contents Val} {hc ha hb hy}
    (hop : ops[k]? = some (ternary c a b y f hc ha hb hy))
    (hy' : y ∉ ws.drop (k + 1)) (hc' : c ∉ ws.drop k) (ha' : a ∉ ws.drop k) (hb' : b ∉ ws.drop k) (V : Valuation τ sig Val) :
    after ops V (Proc.devRef .tc y)
      = f (after ops V (Proc.devRef .tc c)) (after ops V (Proc.devRef .tc a)) (after ops V (Proc.devRef .tc b)) := by
  rw [after_at hw k hop hy', ternary_result, after_eq_take hw k hc', after_eq_take hw k ha', after_eq_take hw k hb']

end SingleAssignment

variable {F : FTy → Type} [FloatOps F]

/-- What @main's operations write, position by position. -/
abbrev ws : List (Ref sig .tc) :=
  [ main_v0, main_cst, main_v1, main_v2, main_v3, main_v4, main_v5, main_v6,
    main_v7, main_v8, main_cst_0, main_v9, main_v10, main_v11, main_cst_1, main_v12,
    main_v13, main_v14, main_v15, main_v16, main_v17, main_v18, main_v19, main_v20,
    main_v21, main_c, main_v22, main_v23, main_v24, main_v25, main_v26, main_v27,
    main_cst_2, main_call0_v0, main_v28, main_cst_3, main_v29, main_cst_4, main_call1_v0, main_v30,
    main_cst_5, main_v31, main_c_6, main_v32, main_c_7, main_v33, main_v34, main_v35,
    main_cst_8, main_v36, main_v37, main_cst_9, main_v38, main_v39, main_v40, main_c_10,
    main_v41, main_cst_11, main_call2_v0, main_call2_v1, main_v42, main_cst_12, main_v43, main_c_13,
    main_v44, main_c_14, main_v45, main_v46, main_v47, main_cst_15, main_call3_v0, main_v48 ]

theorem writesAt : WritesAt (ops : List (HloOp τ sig (Elt F))) ws := by
  repeat (first | exact List.Forall₂.nil | refine List.Forall₂.cons rfl ?_)

local notation "R[" V "; " b "]" => after ops V (Proc.devRef Proc.tc b)

set_option maxRecDepth 8192 in
set_option maxHeartbeats 4000000 in
/-- The final contents of the result buffer, one operation at a time: each `have` is one operation's equation over the
    final valuation (`eq_nullary` … `eq_ternary`, at its position in the line) with its operands' stages rewritten
    in, which is the next stage by unfolding that stage's definition. -/
theorem read_v48 (V : Valuation τ sig (Elt F)) (x0 : (⟨S8192x128, .f32⟩ : BufTy).Contents (Elt F)) (x1 : (⟨S8192, .i32⟩ : BufTy).Contents (Elt F))
    (hx0 : V (Proc.devRef .tc main_arg0) = x0) (hx1 : V (Proc.devRef .tc main_arg1) = x1) :
    after ops V (Proc.devRef .tc main_v48) = val_main_v48 (F := F) x0 x1 := by
  have hw := writesAt (F := F)
  have a0 : R[V; main_arg0] = x0 := (after_frame hw (by decide) V).trans hx0
  have a1 : R[V; main_arg1] = x1 := (after_frame hw (by decide) V).trans hx1
  have s_v0 : R[V; main_v0] = val_main_v0 (F := F) x0 :=
    (eq_binary hw 0 rfl (by decide) (by decide) (by decide) V).trans (by rw [a0]; rfl)
  have s_cst : R[V; main_cst] = val_main_cst (F := F) := eq_nullary hw 1 rfl (by decide) V
  have s_v1 : R[V; main_v1] = val_main_v1 (F := F) x0 :=
    (eq_binary hw 2 rfl (by decide) (by decide) (by decide) V).trans (by rw [s_v0, s_cst]; rfl)
  have s_v2 : R[V; main_v2] = val_main_v2 (F := F) x0 :=
    (eq_unary hw 3 rfl (by decide) (by decide) V).trans (by rw [s_v1]; rfl)
  have s_v3 : R[V; main_v3] = val_main_v3 (F := F) x0 :=
    (eq_unary hw 4 rfl (by decide) (by decide) V).trans (by rw [s_v1]; rfl)
  have s_v4 : R[V; main_v4] = val_main_v4 (F := F) x0 :=
    (eq_unary hw 5 rfl (by decide) (by decide) V).trans (by rw [s_v2]; rfl)
  have s_v5 : R[V; main_v5] = val_main_v5 (F := F) x0 :=
    (eq_unary hw 6 rfl (by decide) (by decide) V).trans (by rw [s_v3]; rfl)
  have s_v6 : R[V; main_v6] = val_main_v6 (F := F) x0 :=
    (eq_binary hw 7 rfl (by decide) (by decide) (by decide) V).trans (by rw [s_v4, s_v5]; rfl)
  have s_v7 : R[V; main_v7] = val_main_v7 (F := F) x0 :=
    (eq_unary hw 8 rfl (by decide) (by decide) V).trans (by rw [a0]; rfl)
  have s_v8 : R[V; main_v8] = val_main_v8 (F := F) x0 :=
    (eq_binary hw 9 rfl (by decide) (by decide) (by decide) V).trans (by rw [a0, s_v7]; rfl)
  have s_cst_0 : R[V; main_cst_0] = val_main_cst_0 (F := F) := eq_nullary hw 10 rfl (by decide) V
  have s_v9 : R[V; main_v9] = val_main_v9 (F := F) :=
    (eq_unary hw 11 rfl (by decide) (by decide) V).trans (by rw [s_cst_0]; rfl)
  have s_v10 : R[V; main_v10] = val_main_v10 (F := F) x0 :=
    (eq_binary hw 12 rfl (by decide) (by decide) (by decide) V).trans (by rw [s_v9, s_v8]; rfl)
  have s_v11 : R[V; main_v11] = val_main_v11 (F := F) x0 :=
    (eq_binary hw 13 rfl (by decide) (by decide) (by decide) V).trans (by rw [s_v6, s_v10]; rfl)
  have s_cst_1 : R[V; main_cst_1] = val_main_cst_1 (F := F) := eq_nullary hw 14 rfl (by decide) V
  have s_v12 : R[V; main_v12] = val_main_v12 (F := F) :=
    (eq_unary hw 15 rfl (by decide) (by decide) V).trans (by rw [s_cst_1]; rfl)
  have s_v13 : R[V; main_v13] = val_main_v13 (F := F) x0 :=
    (eq_binary hw 16 rfl (by decide) (by decide) (by decide) V).trans (by rw [s_v11, s_v12]; rfl)
  have s_v14 : R[V; main_v14] = val_main_v14 (F := F) x0 :=
    (eq_unary hw 17 rfl (by decide) (by decide) V).trans (by rw [s_v13]; rfl)
  have s_v15 : R[V; main_v15] = val_main_v15 (F := F) x1 :=
    (eq_unary hw 18 rfl (by decide) (by decide) V).trans (by rw [a1]; rfl)
  have s_v16 : R[V; main_v16] = val_main_v16 (F := F) x1 :=
    (eq_unary hw 19 rfl (by decide) (by decide) V).trans (by rw [a1]; rfl)
  have s_v17 : R[V; main_v17] = val_main_v17 (F := F) x1 :=
    (eq_unary hw 20 rfl (by decide) (by decide) V).trans (by rw [s_v15]; rfl)
  have s_v18 : R[V; main_v18] = val_main_v18 (F := F) x1 :=
    (eq_unary hw 21 rfl (by decide) (by decide) V).trans (by rw [s_v16]; rfl)
  have s_v19 : R[V; main_v19] = val_main_v19 (F := F) x1 :=
    (eq_binary hw 22 rfl (by decide) (by decide) (by decide) V).trans (by rw [s_v17, s_v18]; rfl)
  have s_v20 : R[V; main_v20] = val_main_v20 (F := F) := eq_nullary hw 23 rfl (by decide) V
  have s_v21 : R[V; main_v21] = val_main_v21 (F := F) := eq_nullary hw 24 rfl (by decide) V
  have s_c : R[V; main_c] = val_main_c (F := F) := eq_nullary hw 25 rfl (by decide) V
  have s_v22 : R[V; main_v22] = val_main_v22 (F := F) :=
    (eq_unary hw 26 rfl (by decide) (by decide) V).trans (by rw [s_c]; rfl)
  have s_v23 : R[V; main_v23] = val_main_v23 (F := F) :=
    (eq_binary hw 27 rfl (by decide) (by decide) (by decide) V).trans (by rw [s_v20, s_v22]; rfl)
  have s_v24 : R[V; main_v24] = val_main_v24 (F := F) :=
    (eq_binary hw 28 rfl (by decide) (by decide) (by decide) V).trans (by rw [s_v23, s_v21]; rfl)
  have s_v25 : R[V; main_v25] = val_main_v25 (F := F) :=
    (eq_unary hw 29 rfl (by decide) (by decide) V).trans (by rw [s_v24]; rfl)
  have s_v26 : R[V; main_v26] = val_main_v26 (F := F) x1 :=
    (eq_binary hw 30 rfl (by decide) (by decide) (by decide) V).trans (by rw [s_v19, s_v25]; rfl)
  have s_v27 : R[V; main_v27] = val_main_v27 (F := F) x1 :=
    (eq_unary hw 31 rfl (by decide) (by decide) V).trans (by rw [s_v19]; rfl)
  have s_cst_2 : R[V; main_cst_2] = val_main_cst_2 (F := F) := eq_nullary hw 32 rfl (by decide) V
  have s_call0_v0 : R[V; main_call0_v0] = val_main_call0_v0 (F := F) :=
    (eq_unary (x := main_cst_2) (y := main_call0_v0)
      (f := (broadcastInDim S8192x8192 ![] bcast_S_S8192x8192 : (⟨S_, .f32⟩ : BufTy).Contents (Elt F) → (⟨S8192x8192, .f32⟩ : BufTy).Contents (Elt F)))
      hw 33 rfl (by decide) (by decide) V).trans (by rw [s_cst_2]; rfl)
  have s_v28 : R[V; main_v28] = val_main_v28 (F := F) x0 x1 :=
    (eq_ternary (c := main_v26) (a := main_v14) (b := main_call0_v0) (y := main_v28)
      (f := (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)))
      hw 34 rfl (by decide) (by decide) (by decide) (by decide) V).trans (by rw [s_v26, s_v14, s_call0_v0]; rfl)
  have s_cst_3 : R[V; main_cst_3] = val_main_cst_3 (F := F) := eq_nullary hw 35 rfl (by decide) V
  have s_v29 : R[V; main_v29] = val_main_v29 (F := F) x0 x1 :=
    (eq_binary hw 36 rfl (by decide) (by decide) (by decide) V).trans (by rw [s_v28, s_cst_3]; rfl)
  have s_cst_4 : R[V; main_cst_4] = val_main_cst_4 (F := F) := eq_nullary hw 37 rfl (by decide) V
  have s_call1_v0 : R[V; main_call1_v0] = val_main_call1_v0 (F := F) :=
    (eq_unary (x := main_cst_4) (y := main_call1_v0)
      (f := (broadcastInDim S8192x8192 ![] bcast_S_S8192x8192 : (⟨S_, .f32⟩ : BufTy).Contents (Elt F) → (⟨S8192x8192, .f32⟩ : BufTy).Contents (Elt F)))
      hw 38 rfl (by decide) (by decide) V).trans (by rw [s_cst_4]; rfl)
  have s_v30 : R[V; main_v30] = val_main_v30 (F := F) x0 x1 :=
    (eq_ternary (c := main_v27) (a := main_v14) (b := main_call1_v0) (y := main_v30)
      (f := (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)))
      hw 39 rfl (by decide) (by decide) (by decide) (by decide) V).trans (by rw [s_v27, s_v14, s_call1_v0]; rfl)
  have s_cst_5 : R[V; main_cst_5] = val_main_cst_5 (F := F) := eq_nullary hw 40 rfl (by decide) V
  have s_v31 : R[V; main_v31] = val_main_v31 (F := F) x0 x1 :=
    (eq_binary hw 41 rfl (by decide) (by decide) (by decide) V).trans (by rw [s_v30, s_cst_5]; rfl)
  have s_c_6 : R[V; main_c_6] = val_main_c_6 (F := F) := eq_nullary hw 42 rfl (by decide) V
  have s_v32 : R[V; main_v32] = val_main_v32 (F := F) x1 :=
    (eq_binary hw 43 rfl (by decide) (by decide) (by decide) V).trans (by rw [s_v26, s_c_6]; rfl)
  have s_c_7 : R[V; main_c_7] = val_main_c_7 (F := F) := eq_nullary hw 44 rfl (by decide) V
  have s_v33 : R[V; main_v33] = val_main_v33 (F := F) x1 :=
    (eq_binary hw 45 rfl (by decide) (by decide) (by decide) V).trans (by rw [s_v27, s_c_7]; rfl)
  have s_v34 : R[V; main_v34] = val_main_v34 (F := F) x1 :=
    (eq_binary hw 46 rfl (by decide) (by decide) (by decide) V).trans (by rw [s_v32, s_v33]; rfl)
  have s_v35 : R[V; main_v35] = val_main_v35 (F := F) x0 x1 :=
    (eq_binary hw 47 rfl (by decide) (by decide) (by decide) V).trans (by rw [s_v29, s_v31]; rfl)
  have s_cst_8 : R[V; main_cst_8] = val_main_cst_8 (F := F) := eq_nullary hw 48 rfl (by decide) V
  have s_v36 : R[V; main_v36] = val_main_v36 (F := F) :=
    (eq_unary hw 49 rfl (by decide) (by decide) V).trans (by rw [s_cst_8]; rfl)
  have s_v37 : R[V; main_v37] = val_main_v37 (F := F) x0 x1 :=
    (eq_binary hw 50 rfl (by decide) (by decide) (by decide) V).trans (by rw [s_v35, s_v36]; rfl)
  have s_cst_9 : R[V; main_cst_9] = val_main_cst_9 (F := F) := eq_nullary hw 51 rfl (by decide) V
  have s_v38 : R[V; main_v38] = val_main_v38 (F := F) :=
    (eq_unary hw 52 rfl (by decide) (by decide) V).trans (by rw [s_cst_9]; rfl)
  have s_v39 : R[V; main_v39] = val_main_v39 (F := F) x0 x1 :=
    (eq_binary hw 53 rfl (by decide) (by decide) (by decide) V).trans (by rw [s_v37, s_v38]; rfl)
  have s_v40 : R[V; main_v40] = val_main_v40 (F := F) x1 :=
    (eq_unary hw 54 rfl (by decide) (by decide) V).trans (by rw [s_v34]; rfl)
  have s_c_10 : R[V; main_c_10] = val_main_c_10 (F := F) := eq_nullary hw 55 rfl (by decide) V
  have s_v41 : R[V; main_v41] = val_main_v41 (F := F) x1 :=
    (eq_binary hw 56 rfl (by decide) (by decide) (by decide) V).trans (by rw [s_v40, s_c_10]; rfl)
  have s_cst_11 : R[V; main_cst_11] = val_main_cst_11 (F := F) := eq_nullary hw 57 rfl (by decide) V
  have s_call2_v0 : R[V; main_call2_v0] = val_main_call2_v0 (F := F) :=
    (eq_unary (x := main_cst_11) (y := main_call2_v0)
      (f := (id : (⟨S_, .f32⟩ : BufTy).Contents (Elt F) → (⟨S_, .f32⟩ : BufTy).Contents (Elt F)))
      hw 58 rfl (by decide) (by decide) V).trans (by rw [s_cst_11]; rfl)
  have s_call2_v1 : R[V; main_call2_v1] = val_main_call2_v1 (F := F) :=
    (eq_unary (x := main_call2_v0) (y := main_call2_v1)
      (f := (broadcastInDim S8192 ![] bcast_S_S8192 : (⟨S_, .f32⟩ : BufTy).Contents (Elt F) → (⟨S8192, .f32⟩ : BufTy).Contents (Elt F)))
      hw 59 rfl (by decide) (by decide) V).trans (by rw [s_call2_v0]; rfl)
  have s_v42 : R[V; main_v42] = val_main_v42 (F := F) x0 x1 :=
    (eq_ternary (c := main_v34) (a := main_v39) (b := main_call2_v1) (y := main_v42)
      (f := (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)))
      hw 60 rfl (by decide) (by decide) (by decide) (by decide) V).trans (by rw [s_v34, s_v39, s_call2_v1]; rfl)
  have s_cst_12 : R[V; main_cst_12] = val_main_cst_12 (F := F) := eq_nullary hw 61 rfl (by decide) V
  have s_v43 : R[V; main_v43] = val_main_v43 (F := F) x0 x1 :=
    (eq_binary hw 62 rfl (by decide) (by decide) (by decide) V).trans (by rw [s_v42, s_cst_12]; rfl)
  have s_c_13 : R[V; main_c_13] = val_main_c_13 (F := F) := eq_nullary hw 63 rfl (by decide) V
  have s_v44 : R[V; main_v44] = val_main_v44 (F := F) x1 :=
    (eq_binary hw 64 rfl (by decide) (by decide) (by decide) V).trans (by rw [s_v41, s_c_13]; rfl)
  have s_c_14 : R[V; main_c_14] = val_main_c_14 (F := F) := eq_nullary hw 65 rfl (by decide) V
  have s_v45 : R[V; main_v45] = val_main_v45 (F := F) x1 :=
    (eq_binary hw 66 rfl (by decide) (by decide) (by decide) V).trans (by rw [s_v41, s_c_14]; rfl)
  have s_v46 : R[V; main_v46] = val_main_v46 (F := F) x1 :=
    (eq_unary hw 67 rfl (by decide) (by decide) V).trans (by rw [s_v45]; rfl)
  have s_v47 : R[V; main_v47] = val_main_v47 (F := F) x0 x1 :=
    (eq_binary hw 68 rfl (by decide) (by decide) (by decide) V).trans (by rw [s_v43, s_v46]; rfl)
  have s_cst_15 : R[V; main_cst_15] = val_main_cst_15 (F := F) := eq_nullary hw 69 rfl (by decide) V
  have s_call3_v0 : R[V; main_call3_v0] = val_main_call3_v0 (F := F) :=
    (eq_unary (x := main_cst_15) (y := main_call3_v0)
      (f := (id : (⟨S_, .f32⟩ : BufTy).Contents (Elt F) → (⟨S_, .f32⟩ : BufTy).Contents (Elt F)))
      hw 70 rfl (by decide) (by decide) V).trans (by rw [s_cst_15]; rfl)
  have s_v48 : R[V; main_v48] = val_main_v48 (F := F) x0 x1 :=
    (eq_ternary (c := main_v44) (a := main_v47) (b := main_call3_v0) (y := main_v48)
      (f := (select : (⟨S_, .i1⟩ : BufTy).Contents (Elt F) → (⟨S_, .f32⟩ : BufTy).Contents (Elt F) → (⟨S_, .f32⟩ : BufTy).Contents (Elt F) → (⟨S_, .f32⟩ : BufTy).Contents (Elt F)))
      hw 71 rfl (by decide) (by decide) (by decide) (by decide) V).trans (by rw [s_v44, s_v47, s_call3_v0]; rfl)
  exact s_v48

/-- The arguments are written by no operation. -/
theorem read_arg0 (V : Valuation τ sig (Elt F)) : after ops V (Proc.devRef .tc main_arg0) = V (Proc.devRef .tc main_arg0) :=
  after_frame writesAt (by decide) V
theorem read_arg1 (V : Valuation τ sig (Elt F)) : after ops V (Proc.devRef .tc main_arg1) = V (Proc.devRef .tc main_arg1) :=
  after_frame writesAt (by decide) V

/-- On every device, for any float values, from any memory with zero counters: every weakly fair execution of
    @main terminates with the result at the last stage of the read-back over the arguments and the arguments
    unchanged. -/
theorem run' (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = Cert.ReferenceIdeal.ReadP.val_main_v48 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v48).trans (read_v48 (launchContents m c) _ _ rfl rfl),
      (h c main_arg0).trans (read_arg0 (launchContents m c)),
      (h c main_arg1).trans (read_arg1 (launchContents m c))⟩)
    (run_seq scopedRefs_eq scopedSems_eq defs main (fun _ => ops) main_eq (fun _ => ops_sub) m ρ)

end Cert.ReferenceIdeal.RunW

end
-- ==== Proof.lean ====
/-
  Hardest-pair triplet mining: the kernel against its jnp reference, over the extended reals.

  Both programs take 8192 embeddings of dimension 128 and their labels, form the squared distances
  |xᵢ|² + |xⱼ|² - 2⟨xᵢ, xⱼ⟩, and for every row take the hardest positive (same label, other row: the largest distance)
  and the hardest negative (other label: the smallest); a row counts when it has both, and the loss is the mean over
  the counting rows of max (hp - hn + margin) floor, zero when no row counts. They differ in two places.
    • The kernel takes the row extrema of the SQUARED distances and applies the clamped root √(max · ε) to the two
      extrema; the reference applies it to every distance first. The clamped root is monotone on the extended reals
      (the root of a negative number reads ⊥, below everything) and fixes ⊤, so it commutes with a row minimum
      outright and with a row maximum as soon as the row has one positive partner.
    • The kernel fills the masked-out lanes with two finite numbers that the statement names ⊥ and ⊤, and decides
      "the row counts" by comparing the extrema with the named ⊥ and ⊤; the reference fills with the infinities and
      asks whether a positive and a negative partner exist. The two tests agree because every squared distance of
      finite inputs is a real number — the one place where the precondition is used.
  On the rows that do not count the two programs hold different numbers (the kernel the root of ε, the reference ⊥),
  and both discard them by the same selection before summing.

  The kernel's result array is read off its frame run block by block (RowBlocks, KernelRun), its blocks are read at an
  index over the extended reals (RowDist, RowMasks, KernelLoss); the reference is read one operation at a time
  (RefLoss*); HardestLaw proves the two orders equal.
-/
import proofs.«173457_j28991029248550_2_alg».proof.Defs
import proofs.«173457_j28991029248550_2_alg».proof.Proof.Gen.Kernel
import proofs.«173457_j28991029248550_2_alg».proof.Proof.Gen.Kernel.Skeleton
import proofs.«173457_j28991029248550_2_alg».proof.Proof.Gen.Kernel.Launch
import proofs.«173457_j28991029248550_2_alg».proof.Proof.Gen.Kernel.Points
import proofs.«173457_j28991029248550_2_alg».proof.Proof.Gen.Kernel.Frame
import proofs.«173457_j28991029248550_2_alg».proof.Proof.Gen.KernelIdeal
import proofs.«173457_j28991029248550_2_alg».proof.Proof.Gen.KernelIdeal.Skeleton
import proofs.«173457_j28991029248550_2_alg».proof.Proof.Gen.KernelIdeal.Launch
import proofs.«173457_j28991029248550_2_alg».proof.Proof.Gen.KernelIdeal.Points
import proofs.«173457_j28991029248550_2_alg».proof.Proof.Gen.KernelIdeal.Frame
import proofs.«173457_j28991029248550_2_alg».proof.Proof.Gen.ReferenceIdeal
import proofs.«173457_j28991029248550_2_alg».proof.Proof.Gen.Pre_finite_inputs
import proofs.«173457_j28991029248550_2_alg».proof.Proof.KernelLoss
import proofs.«173457_j28991029248550_2_alg».proof.Proof.RefLoss
import proofs.«173457_j28991029248550_2_alg».proof.Proof.FiniteInputs
import proofs.«173457_j28991029248550_2_alg».proof.Proof.RefRunW
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, ?_, ?_⟩
  · -- the reference runs and keeps its arguments: its run with the result dropped
    exact fun m ρ _ => (θ_run Cert.ReferenceIdeal.defs _ _).mono (fun _ h c => (h c).2) (Cert.ReferenceIdeal.RunW.run' (F := Ideal) m ρ)
  · -- the four named constants are what the statement's table says
    exact ⟨IdealRules.named_const.statement Cert.KernelIdeal.κ "neg_big" .f32 0xF149F2CA#32 ⊥ rfl,
      IdealRules.named_const.statement Cert.KernelIdeal.κ "pos_big" .f32 0x7149F2CA#32 ⊤ rfl,
      IdealRules.named_const.statement Cert.KernelIdeal.κ "neg_big_2" .f32 0xF0C9F2CA#32 ⊥ rfl,
      IdealRules.named_const.statement Cert.KernelIdeal.κ "pos_big_2" .f32 0x70C9F2CA#32 ⊤ rfl⟩
  · -- both runs end at the extremum-first loss of the (agreeing) arguments
    intro m ρ m' ρ' hpre hagree
    refine ⟨fun c _ => Cert.Hardest.lossE (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
    · exact (θ_run Cert.KernelIdeal.defs _ _).mono
        (fun _ h c => ⟨(h c).1.trans (Cert.KernelIdeal.Rows.tail_eq m c), (h c).2⟩) (Cert.KernelIdeal.Rows.run (F := Ideal) m ρ)
    · refine (θ_run Cert.ReferenceIdeal.defs _ _).mono (fun _ h c => ⟨(h c).1.trans ?_, (h c).2⟩) (Cert.ReferenceIdeal.RunW.run' (F := Ideal) m' ρ')
      rw [Cert.ReferenceIdeal.RefValue.ref_loss, (hagree c).1, (hagree c).2]
      funext _
      exact (Cert.Hardest.lossE_eq_lossR _ _ (@Cert.Hardest.finite_of_pre Cert.Pre_finite_inputs.Gen.facts _ _ (hpre c))).symm⟩

end Cert.Proof

end
